-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S50257x256 : Shape := ⟨2, ![50257, 256]⟩
abbrev S512x256 : Shape := ⟨2, ![512, 256]⟩
abbrev S1024x65536 : Shape := ⟨2, ![1024, 65536]⟩
abbrev S1024 : Shape := ⟨1, ![1024]⟩
abbrev S_ : Shape := ⟨0, ![]⟩

class Facts : Prop where
  bcast_S_S50257x256 : S_.BroadcastsInDim S50257x256 (![] : Fin 0 → Fin S50257x256.rank)
  reducesTo_S50257x256_S_d0_1 : S50257x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S1024x65536 : S_.BroadcastsInDim S1024x65536 (![] : Fin 0 → Fin S1024x65536.rank)
  reducesTo_S1024x65536_S_d0_1 : S1024x65536.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : IVec S64x128 32) (main_arg1 : IVec S64x128 32) (main_arg2 : FVec F S50257x256 .f32) (main_arg3 : FVec F S512x256 .f32) (main_arg4 : FVec F S1024x65536 .f32) (main_arg5 : FVec F S1024 .f32) : IVec S_ 1 :=
  let main_v0 : FVec F S50257x256 .f32 := Host.absf main_arg2
  let main_cst : FVec F S_ .f32 := constant S_ .f32 0x7F800000#32
  let main_v1 : FVec F S50257x256 .f32 := broadcastInDim S50257x256 ![] bcast_S_S50257x256 main_cst
  let main_v2 : IVec S50257x256 1 := cmpf .olt main_v0 main_v1
  let main_c : IVec S_ 1 := constantI S_ 1 1#1
  let main_v3 : IVec S_ 1 := (fun x v => Host.reduce IntOp.andi x v reducesTo_S50257x256_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S1024x65536 .f32 := Host.absf main_arg4
  let main_cst_2 : FVec F S_ .f32 := constant S_ .f32 0x7F800000#32
  let main_v10 : FVec F S1024x65536 .f32 := broadcastInDim S1024x65536 ![] bcast_S_S1024x65536 main_cst_2
  let main_v11 : IVec S1024x65536 1 := cmpf .olt main_v9 main_v10
  let main_c_3 : IVec S_ 1 := constantI S_ 1 1#1
  let main_v12 : IVec S_ 1 := (fun x v => Host.reduce IntOp.andi x v reducesTo_S1024x65536_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S64x128 : Shape := ⟨2, ![64, 128]⟩
abbrev S50257x256 : Shape := ⟨2, ![50257, 256]⟩
abbrev S512x256 : Shape := ⟨2, ![512, 256]⟩
abbrev S1024x65536 : Shape := ⟨2, ![1024, 65536]⟩
abbrev S1024 : Shape := ⟨1, ![1024]⟩
abbrev S_ : Shape := ⟨0, ![]⟩
abbrev S64x128x1 : Shape := ⟨3, ![64, 128, 1]⟩
abbrev S64x128x256 : Shape := ⟨3, ![64, 128, 256]⟩
abbrev S64x256x256 : Shape := ⟨3, ![64, 256, 256]⟩
abbrev S32x128x256 : Shape := ⟨3, ![32, 128, 256]⟩
abbrev S32x256x256 : Shape := ⟨3, ![32, 256, 256]⟩
abbrev S64x65536 : Shape := ⟨2, ![64, 65536]⟩
abbrev S1x1024 : Shape := ⟨2, ![1, 1024]⟩
abbrev S64x1024 : Shape := ⟨2, ![64, 1024]⟩
abbrev S64x4096 : Shape := ⟨2, ![64, 4096]⟩
abbrev S512x4096 : Shape := ⟨2, ![512, 4096]⟩
abbrev S1x512 : Shape := ⟨2, ![1, 512]⟩
abbrev S64x512 : Shape := ⟨2, ![64, 512]⟩

abbrev nBuf : Space → Nat
  | .hbm => 30
  | .vmem => 15
  | .smem => 0
  | _ => 0

abbrev bufTy : (tb : Table) → Fin (tcTables nBuf tb) → BufTy
  | .hbm, ⟨0, _⟩ => ⟨S64x128, .i32⟩
  | .hbm, ⟨1, _⟩ => ⟨S64x128, .i32⟩
  | .hbm, ⟨2, _⟩ => ⟨S50257x256, .f32⟩
  | .hbm, ⟨3, _⟩ => ⟨S512x256, .f32⟩
  | .hbm, ⟨4, _⟩ => ⟨S1024x65536, .f32⟩
  | .hbm, ⟨5, _⟩ => ⟨S1024, .f32⟩
  | .hbm, ⟨6, _⟩ => ⟨S_, .i32⟩
  | .hbm, ⟨7, _⟩ => ⟨S64x128, .i32⟩
  | .hbm, ⟨8, _⟩ => ⟨S64x128, .i1⟩
  | .hbm, ⟨9, _⟩ => ⟨S_, .i32⟩
  | .hbm, ⟨10, _⟩ => ⟨S64x128, .i32⟩
  | .hbm, ⟨11, _⟩ => ⟨S64x128, .i32⟩
  | .hbm, ⟨12, _⟩ => ⟨S64x128, .i32⟩
  | .hbm, ⟨13, _⟩ => ⟨S64x128x1, .i32⟩
  | .hbm, ⟨14, _⟩ => ⟨S64x128x256, .f32⟩
  | .hbm, ⟨15, _⟩ => ⟨S64x128x256, .bf16⟩
  | .hbm, ⟨16, _⟩ => ⟨S_, .i32⟩
  | .hbm, ⟨17, _⟩ => ⟨S64x128, .i32⟩
  | .hbm, ⟨18, _⟩ => ⟨S64x128, .i1⟩
  | .hbm, ⟨19, _⟩ => ⟨S_, .i32⟩
  | .hbm, ⟨20, _⟩ => ⟨S64x128, .i32⟩
  | .hbm, ⟨21, _⟩ => ⟨S64x128, .i32⟩
  | .hbm, ⟨22, _⟩ => ⟨S64x128, .i32⟩
  | .hbm, ⟨23, _⟩ => ⟨S64x128x1, .i32⟩
  | .hbm, ⟨24, _⟩ => ⟨S64x128x256, .f32⟩
  | .hbm, ⟨25, _⟩ => ⟨S64x128x256, .bf16⟩
  | .hbm, ⟨26, _⟩ => ⟨S64x256x256, .bf16⟩
  | .hbm, ⟨27, _⟩ => ⟨S64x65536, .bf16⟩
  | .hbm, ⟨28, _⟩ => ⟨S1x1024, .f32⟩
  | .hbm, ⟨29, _⟩ => ⟨S64x1024, .f32⟩
  | .local _ .vmem, ⟨0, _⟩ => ⟨S32x128x256, .bf16⟩
  | .local _ .vmem, ⟨1, _⟩ => ⟨S32x128x256, .bf16⟩
  | .local _ .vmem, ⟨2, _⟩ => ⟨S32x128x256, .bf16⟩
  | .local _ .vmem, ⟨3, _⟩ => ⟨S32x128x256, .bf16⟩
  | .local _ .vmem, ⟨4, _⟩ => ⟨S32x256x256, .bf16⟩
  | .local _ .vmem, ⟨5, _⟩ => ⟨S32x256x256, .bf16⟩
  | .local _ .vmem, ⟨6, _⟩ => ⟨S64x4096, .bf16⟩
  | .local _ .vmem, ⟨7, _⟩ => ⟨S64x4096, .bf16⟩
  | .local _ .vmem, ⟨8, _⟩ => ⟨S512x4096, .f32⟩
  | .local _ .vmem, ⟨9, _⟩ => ⟨S512x4096, .f32⟩
  | .local _ .vmem, ⟨10, _⟩ => ⟨S1x512, .f32⟩
  | .local _ .vmem, ⟨11, _⟩ => ⟨S1x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bitsLt_bf16_f32 : FTy.bits .bf16 < FTy.bits .f32
  inb_S32x128x256_S32x128x256_0_0_0 : ∀ a, (![0, 0, 0] : Fin 3 → Nat) a + S32x128x256.size a ≤ S32x128x256.size a
  h_S32x128x256 : 0 < S32x128x256.numel
  shapeCasts_S32x128x256_S32x128x256 : S32x128x256.ShapeCasts S32x128x256
  inb_S32x256x256_S32x256x256_0_0_0 : ∀ a, (![0, 0, 0] : Fin 3 → Nat) a + S32x256x256.size a ≤ S32x256x256.size a
  h_S32x256x256 : 0 < S32x256x256.numel
  packedbf16_S32x256x256_S32x256x256_0_0_0 : (Rect.unit (s := S32x256x256) ![0, 0, 0] S32x256x256.size inb_S32x256x256_S32x256x256_0_0_0).PackedRows (EltTy.packing .bf16)
  shapeCasts_S64x256x256_S64x65536 : S64x256x256.ShapeCasts S64x65536
  shapeCasts_S1024_S1x1024 : S1024.ShapeCasts S1x1024
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  gather_S50257x256_S64x128x1_S64x128x256_2_0_n_n_0_2_1256_wf : GatherDims.WF S50257x256 S64x128x1 S64x128x256 [2] [0] [] [0] [] 2 ![1, 256]
  gather_S512x256_S64x128x1_S64x128x256_2_0_n_n_0_2_1256_wf : GatherDims.WF S512x256 S64x128x1 S64x128x256 [2] [0] [] [0] [] 2 ![1, 256]
  dot_S32x128x256_S32x128x256_S32x256x256_1_1_2_2_0_0_wf : DotDims.WF S32x128x256 S32x128x256 S32x256x256 [1] [1] [2] [2] [0] [0]
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S64x128x256.size a
  hwx0_0 : ∀ i : grid0.Coords, EltTy.bits .bf16 = 32 ∨ (Rect.block (s := S64x128x256) S32x128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x256.size a ≤ S64x128x256.size a
  hwx0_1 : ∀ i : grid0.Coords, EltTy.bits .bf16 = 32 ∨ (Rect.block (s := S64x128x256) S32x128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x256.size a ≤ S64x256x256.size a
  hwx0_2 : ∀ i : grid0.Coords, EltTy.bits .bf16 = 32 ∨ (Rect.block (s := S64x256x256) S32x256x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S64x65536.size a
  hwx1_0 : ∀ i : grid1.Coords, EltTy.bits .bf16 = 32 ∨ (Rect.block (s := S64x65536) S64x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S1024x65536.size a
  hwx1_1 : ∀ i : grid1.Coords, EltTy.bits .f32 = 32 ∨ (Rect.block (s := S1024x65536) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x1024.size a
  hwx1_3 : ∀ i : grid1.Coords, EltTy.bits .f32 = 32 ∨ (Rect.block (s := S64x1024) S64x512.size (cc1_transform_3 i) (hinb1_3 i)).WholeWords (EltTy.packing .f32)

variable [Facts₀]

def gather_S50257x256_S64x128x1_S64x128x256_2_0_n_n_0_2_1256 : GatherDims S50257x256 S64x128x1 S64x128x256 where
  offsetDims := [2]
  collapsedSliceDims := [0]
  operandBatchingDims := []
  startIndicesBatchingDims := []
  startIndexMap := [0]
  indexVectorDim := 2
  sliceSizes := ![1, 256]
  wf := gather_S50257x256_S64x128x1_S64x128x256_2_0_n_n_0_2_1256_wf
def gather_S512x256_S64x128x1_S64x128x256_2_0_n_n_0_2_1256 : GatherDims S512x256 S64x128x1 S64x128x256 where
  offsetDims := [2]
  collapsedSliceDims := [0]
  operandBatchingDims := []
  startIndicesBatchingDims := []
  startIndexMap := [0]
  indexVectorDim := 2
  sliceSizes := ![1, 256]
  wf := gather_S512x256_S64x128x1_S64x128x256_2_0_n_n_0_2_1256_wf
def dot_S32x128x256_S32x128x256_S32x256x256_1_1_2_2_0_0 : DotDims S32x128x256 S32x128x256 S32x256x256 where
  lhsContracting := [1]
  rhsContracting := [1]
  lhsNonContracting := [2]
  rhsNonContracting := [2]
  lhsBatch := [0]
  rhsBatch := [0]
  wf := dot_S32x128x256_S32x128x256_S32x256x256_1_1_2_2_0_0_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_v7) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S32x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S32x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S64x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S64x128 : Shape := ⟨2, ![64, 128]⟩
abbrev S50257x256 : Shape := ⟨2, ![50257, 256]⟩
abbrev S512x256 : Shape := ⟨2, ![512, 256]⟩
abbrev S1024x65536 : Shape := ⟨2, ![1024, 65536]⟩
abbrev S1024 : Shape := ⟨1, ![1024]⟩
abbrev S_ : Shape := ⟨0, ![]⟩
abbrev S64x128x1 : Shape := ⟨3, ![64, 128, 1]⟩
abbrev S64x128x256 : Shape := ⟨3, ![64, 128, 256]⟩
abbrev S64x256x256 : Shape := ⟨3, ![64, 256, 256]⟩
abbrev S64x65536 : Shape := ⟨2, ![64, 65536]⟩
abbrev S65536x1024 : Shape := ⟨2, ![65536, 1024]⟩
abbrev S64x1024 : Shape := ⟨2, ![64, 1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S64x128, .i32⟩
  | .hbm, ⟨1, _⟩ => ⟨S64x128, .i32⟩
  | .hbm, ⟨2, _⟩ => ⟨S50257x256, .f32⟩
  | .hbm, ⟨3, _⟩ => ⟨S512x256, .f32⟩
  | .hbm, ⟨4, _⟩ => ⟨S1024x65536, .f32⟩
  | .hbm, ⟨5, _⟩ => ⟨S1024, .f32⟩
  | .hbm, ⟨6, _⟩ => ⟨S_, .i32⟩
  | .hbm, ⟨7, _⟩ => ⟨S64x128, .i32⟩
  | .hbm, ⟨8, _⟩ => ⟨S64x128, .i1⟩
  | .hbm, ⟨9, _⟩ => ⟨S_, .i32⟩
  | .hbm, ⟨10, _⟩ => ⟨S64x128, .i32⟩
  | .hbm, ⟨11, _⟩ => ⟨S64x128, .i32⟩
  | .hbm, ⟨12, _⟩ => ⟨S64x128, .i32⟩
  | .hbm, ⟨13, _⟩ => ⟨S64x128x1, .i32⟩
  | .hbm, ⟨14, _⟩ => ⟨S64x128x256, .f32⟩
  | .hbm, ⟨15, _⟩ => ⟨S_, .i32⟩
  | .hbm, ⟨16, _⟩ => ⟨S64x128, .i32⟩
  | .hbm, ⟨17, _⟩ => ⟨S64x128, .i1⟩
  | .hbm, ⟨18, _⟩ => ⟨S_, .i32⟩
  | .hbm, ⟨19, _⟩ => ⟨S64x128, .i32⟩
  | .hbm, ⟨20, _⟩ => ⟨S64x128, .i32⟩
  | .hbm, ⟨21, _⟩ => ⟨S64x128, .i32⟩
  | .hbm, ⟨22, _⟩ => ⟨S64x128x1, .i32⟩
  | .hbm, ⟨23, _⟩ => ⟨S64x128x256, .f32⟩
  | .hbm, ⟨24, _⟩ => ⟨S64x256x256, .f32⟩
  | .hbm, ⟨25, _⟩ => ⟨S64x65536, .f32⟩
  | .hbm, ⟨26, _⟩ => ⟨S65536x1024, .f32⟩
  | .hbm, ⟨27, _⟩ => ⟨S64x1024, .f32⟩
  | .hbm, ⟨28, _⟩ => ⟨S1x1024, .f32⟩
  | .hbm, ⟨29, _⟩ => ⟨S64x1024, .f32⟩
  | .hbm, ⟨30, _⟩ => ⟨S64x1024, .f32⟩
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  shapeCasts_S64x256x256_S64x65536 : S64x256x256.ShapeCasts S64x65536
  transposes_S1024x65536_S65536x1024_1_0 : S1024x65536.Transposes [1, 0] S65536x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  gather_S50257x256_S64x128x1_S64x128x256_2_0_n_n_0_2_1256_wf : GatherDims.WF S50257x256 S64x128x1 S64x128x256 [2] [0] [] [0] [] 2 ![1, 256]
  gather_S512x256_S64x128x1_S64x128x256_2_0_n_n_0_2_1256_wf : GatherDims.WF S512x256 S64x128x1 S64x128x256 [2] [0] [] [0] [] 2 ![1, 256]
  dot_S64x128x256_S64x128x256_S64x256x256_1_1_2_2_0_0_wf : DotDims.WF S64x128x256 S64x128x256 S64x256x256 [1] [1] [2] [2] [0] [0]
  dot_S64x65536_S65536x1024_S64x1024_1_0_0_1_n_n_wf : DotDims.WF S64x65536 S65536x1024 S64x1024 [1] [0] [0] [1] [] []

variable [Facts₀]

def gather_S50257x256_S64x128x1_S64x128x256_2_0_n_n_0_2_1256 : GatherDims S50257x256 S64x128x1 S64x128x256 where
  offsetDims := [2]
  collapsedSliceDims := [0]
  operandBatchingDims := []
  startIndicesBatchingDims := []
  startIndexMap := [0]
  indexVectorDim := 2
  sliceSizes := ![1, 256]
  wf := gather_S50257x256_S64x128x1_S64x128x256_2_0_n_n_0_2_1256_wf
def gather_S512x256_S64x128x1_S64x128x256_2_0_n_n_0_2_1256 : GatherDims S512x256 S64x128x1 S64x128x256 where
  offsetDims := [2]
  collapsedSliceDims := [0]
  operandBatchingDims := []
  startIndicesBatchingDims := []
  startIndexMap := [0]
  indexVectorDim := 2
  sliceSizes := ![1, 256]
  wf := gather_S512x256_S64x128x1_S64x128x256_2_0_n_n_0_2_1256_wf
def dot_S64x128x256_S64x128x256_S64x256x256_1_1_2_2_0_0 : DotDims S64x128x256 S64x128x256 S64x256x256 where
  lhsContracting := [1]
  rhsContracting := [1]
  lhsNonContracting := [2]
  rhsNonContracting := [2]
  lhsBatch := [0]
  rhsBatch := [0]
  wf := dot_S64x128x256_S64x128x256_S64x256x256_1_1_2_2_0_0_wf
def dot_S64x65536_S65536x1024_S64x1024_1_0_0_1_n_n : DotDims S64x65536 S65536x1024 S64x1024 where
  lhsContracting := [1]
  rhsContracting := [0]
  lhsNonContracting := [0]
  rhsNonContracting := [1]
  lhsBatch := []
  rhsBatch := []
  wf := dot_S64x65536_S65536x1024_S64x1024_1_0_0_1_n_n_wf

class Facts : Prop extends Facts₀ where

variable [Facts]
-- ==== Proof.BitsBody.lean ====
/-
  The two kernel bodies run on whole staging buffers.

  The tensor-product body reads a block of 32 batches of each operand and stores, whole, their batched product
  (contracted over the 128 sequence positions) into the output buffer.

  The linear body keeps an accumulator of shape [64, 512] in a scratch buffer across the 16 K-steps of one output
  block: at the first step it is zeroed, at every step the product of the [64, 4096] activation block with the
  [512, 4096] weight block (contracted over the 4096 columns) is added to it, and at the last step the bias row is
  added and the result stored, whole, into the output buffer. Which of the two branches a step takes depends on
  the K coordinate only, so the body is run once per case: first, middle, last.

  Each statement names what every buffer holds afterwards through the bodies' pure payload terms.
-/
import proofs.«181320_j70016556860030_2_alg».proof.Proof.Gen.Kernel.Launch
import proofs.«181320_j70016556860030_2_alg».proof.Proof.Gen.Kernel.Skeleton
import proofs.«181320_j70016556860030_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, however they are spelt, are the zero function. -/
theorem zero3 : (![0, 0, 0] : Fin 3 → Nat) = fun _ => 0 := by funext a; fin_cases a <;> rfl
theorem zero2 : (![0, 0] : Fin 2 → Nat) = fun _ => 0 := by funext a; fin_cases a <;> rfl

set_option maxHeartbeats 1000000 in
/-- The tensor-product body on whole staging buffers: both operand blocks are read, the output buffer is loaded and
    then stored whole, so it ends holding the batched product of the two blocks; the operands are left as found. -/
theorem tp_body (c : Dev nD) (E : Set ℕ) (i : grid0.Coords)
    (arg1 : Memref sig .tc .vmem S32x128x256 .bf16) (harg1 : arg1.IsWhole)
    (arg2 : Memref sig .tc .vmem S32x128x256 .bf16) (harg2 : arg2.IsWhole)
    (arg3 : Memref sig .tc .vmem S32x256x256 .bf16) (harg3 : arg3.IsWhole)
    (x0 x1 : Vec F S32x128x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__tp_kernel i arg1 harg1 arg2 harg2 arg3 harg3) K := by
  simp only [cc0__tp_kernel_eq_skeleton]; unfold cc0__tp_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero3 inb_S32x256x256_S32x256x256_0_0_0 y⟩),
    View.canon_unit_zero zero3]
  simp only [View.readAt_eq_ld, View.ld_unit_zero (S := S32x128x256) zero3]

/-- The first branch of the linear body is taken exactly when the K coordinate is 0 (the accumulator is reset there), -/
abbrev atFirstK (i : grid1.Coords) : Prop := (Scalar.cmpi .ne (Scalar.extui (Scalar.cmpi .eq (BitVec.ofNat 32 (i 1).val) 0#32)) 0#32) = 1#1
/-- and the second exactly when it is the last one (the bias is added and the output block stored there). -/
abbrev atLastK (i : grid1.Coords) : Prop := k1_cond2 i = 1#1

set_option maxHeartbeats 1000000 in
/-- The linear body at the first K-step of an output block: the accumulator is stored whole with zeros, then read back and stored whole with itself plus the product of the two operand blocks; the bias and output buffers are not touched. -/
theorem lin_first (c : Dev nD) (E : Set ℕ) (i : grid1.Coords)
    (arg2 : Memref sig .tc .vmem S64x4096 .bf16) (harg2 : arg2.IsWhole) (arg3 : Memref sig .tc .vmem S512x4096 .f32) (harg3 : arg3.IsWhole)
    (arg4 : Memref sig .tc .vmem S1x512 .f32) (harg4 : arg4.IsWhole) (arg5 : Memref sig .tc .vmem S64x512 .f32) (harg5 : arg5.IsWhole)
    (arg6 : Memref sig .tc .vmem S64x512 .f32) (harg6 : arg6.IsWhole) (hc0 : atFirstK i) (hc1 : ¬ atLastK i)
    (x0 : Vec F S64x4096 .bf16) (x1 : Vec F S512x4096 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1 ∗ owns (c : Thread nD τ) arg6 fullShare (k1_pay2 x0 x1 (k1_pay1 (F := F)))) -∗ K ⟨⟩))
      ⊢ wp frame (wpE (defs₀ (F := F)) Variants.none c none) E (cc1__lin_kernel i arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons.mpr (Or.inl rfl), View.mem_set_unit_zero zero2 inb_S64x512_S64x512_0_0 y⟩),
    View.canon_cons_unit_zero (S := S64x512) zero2]
  try rw [View.readCov_unit_zero (S := S64x512) _ zero2]
  simp only [View.readAt_eq_ld, View.ld_unit_zero (S := S64x4096) zero2, View.ld_unit_zero (S := S512x4096) zero2, View.ld_unit_zero (S := S64x512) zero2, View.ld_unit_zero (S := S1x512) zero2]

set_option maxHeartbeats 1000000 in
/-- The linear body at a K-step that is neither first nor last: the accumulator is read and stored whole with itself plus the product of the two operand blocks. -/
theorem lin_mid (c : Dev nD) (E : Set ℕ) (i : grid1.Coords)
    (arg2 : Memref sig .tc .vmem S64x4096 .bf16) (harg2 : arg2.IsWhole) (arg3 : Memref sig .tc .vmem S512x4096 .f32) (harg3 : arg3.IsWhole)
    (arg4 : Memref sig .tc .vmem S1x512 .f32) (harg4 : arg4.IsWhole) (arg5 : Memref sig .tc .vmem S64x512 .f32) (harg5 : arg5.IsWhole)
    (arg6 : Memref sig .tc .vmem S64x512 .f32) (harg6 : arg6.IsWhole) (hc0 : ¬ atFirstK i) (hc1 : ¬ atLastK i)
    (x0 : Vec F S64x4096 .bf16) (x1 : Vec F S512x4096 .f32) (xs : Vec F S64x512 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1 ∗ owns (c : Thread nD τ) arg6 fullShare (k1_pay2 x0 x1 xs)) -∗ K ⟨⟩))
      ⊢ wp frame (wpE (defs₀ (F := F)) Variants.none c none) E (cc1__lin_kernel i arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons.mpr (Or.inl rfl), View.mem_set_unit_zero zero2 inb_S64x512_S64x512_0_0 y⟩),
    View.canon_cons_unit_zero (S := S64x512) zero2]
  try rw [View.readCov_unit_zero (S := S64x512) _ zero2]
  simp only [View.readAt_eq_ld, View.ld_unit_zero (S := S64x4096) zero2, View.ld_unit_zero (S := S512x4096) zero2, View.ld_unit_zero (S := S64x512) zero2, View.ld_unit_zero (S := S1x512) zero2]

set_option maxHeartbeats 1000000 in
/-- The linear body at the last K-step: the accumulator is updated as at a middle step, then read back, the bias row is added to every row, and the output buffer is stored whole with the sum. -/
theorem lin_last (c : Dev nD) (E : Set ℕ) (i : grid1.Coords)
    (arg2 : Memref sig .tc .vmem S64x4096 .bf16) (harg2 : arg2.IsWhole) (arg3 : Memref sig .tc .vmem S512x4096 .f32) (harg3 : arg3.IsWhole)
    (arg4 : Memref sig .tc .vmem S1x512 .f32) (harg4 : arg4.IsWhole) (arg5 : Memref sig .tc .vmem S64x512 .f32) (harg5 : arg5.IsWhole)
    (arg6 : Memref sig .tc .vmem S64x512 .f32) (harg6 : arg6.IsWhole) (hc0 : ¬ atFirstK i) (hc1 : atLastK i)
    (x0 : Vec F S64x4096 .bf16) (x1 : Vec F S512x4096 .f32) (x2 : Vec F S1x512 .f32) (xs : Vec F S64x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__lin_kernel i arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons.mpr (Or.inl rfl), View.mem_set_unit_zero zero2 inb_S64x512_S64x512_0_0 y⟩),
      View.canon_cons_unit_zero (S := S64x512) zero2]
    try rw [View.readCov_unit_zero (S := S64x512) _ zero2]
    simp only [View.readAt_eq_ld, View.ld_unit_zero (S := S64x4096) zero2, View.ld_unit_zero (S := S512x4096) zero2, View.ld_unit_zero (S := S64x512) zero2, View.ld_unit_zero (S := S1x512) zero2]
  iexists _; isplitr
  swap; · iexact HS
  ipureintro
  sl_unfold_run_names
  rw [View.read_writes_eq_canon _ _ _ (fun y => ⟨_, List.mem_cons.mpr (Or.inl rfl), View.mem_set_unit_zero zero2 inb_S64x512_S64x512_0_0 y⟩),
    View.canon_cons_unit_zero (S := S64x512) zero2]
  try rw [View.readCov_unit_zero (S := S64x512) _ zero2]
  simp only [View.readAt_eq_ld, View.ld_unit_zero (S := S64x4096) zero2, View.ld_unit_zero (S := S512x4096) zero2, View.ld_unit_zero (S := S64x512) zero2, View.ld_unit_zero (S := S1x512) zero2]

end Cert.Kernel.Hand

end
-- ==== Proof.BitsRegions.lean ====
/-
  The frame of the whole program, and what its result buffer holds at the end.

  @main is a stretch of host operations (the two embedding lookups), the tensor-product region, two host reshapes,
  and the linear region. Per region, at the buffer contents `V` the region is entered with: each window's block at a
  grid point, what the body leaves in each staging buffer there, and the body's obligation at every point.

  The tensor-product region writes, at each of its 2 points, the batched product of that point's operand blocks.

  The linear region carries its accumulator across the 16 K-steps of each of its 2 output blocks. `accBefore V c t`
  is what the accumulator holds before point `t`: the previous point's update of what was there, restarting from
  zeros at the first K-step of a block. The region's invariant holds the scratch buffer at those contents (at
  anything before a first K-step, where the body overwrites it without reading). The output window is stored at the
  last K-step only and is left untouched, and not written back, elsewhere.

  The run then threads the buffer contents through @main's four segments; its post says every buffer outside the
  kernels' scoped memory ends at the last of those contents, from which both the unchanged arguments and the result
  are read.
-/
import proofs.«181320_j70016556860030_2_alg».proof.Proof.BitsBody
import proofs.«181320_j70016556860030_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # The tensor-product region -/

/-- Window `w`'s block at point `t` of the tensor-product region, read off its array as the region finds it. -/
def tpBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's staging buffer holds its block at every point. -/
theorem tp_before_0 {c : Dev nD} (dat : Dat τ (Elt F) Unit ℕ (UR sig nD τ) ℕ cfg0 c) (hA : dat.A 0 = V c (Pipeline.arrRef spec0 0))
    (hafter : ∀ t, dat.after 0 t = tpBlk V c 0 t) (t : Fin cfg0.N) (d) : dat.before 0 t d = tpBlk V c 0 t :=
  (dat.before_in_eq_fetched 0 rfl (fun _ => rfl) (fun _ _ _ => rfl) (fun t => by rw [hafter]; unfold Dat.blockOf tpBlk; rw [hA]; try rfl) t d).trans
    (by unfold Dat.fetched Dat.blockOf tpBlk; rw [hA]; try rfl)
theorem tp_before_1 {c : Dev nD} (dat : Dat τ (Elt F) Unit ℕ (UR sig nD τ) ℕ cfg0 c) (hA : dat.A 1 = V c (Pipeline.arrRef spec0 1))
    (hafter : ∀ t, dat.after 1 t = tpBlk V c 1 t) (t : Fin cfg0.N) (d) : dat.before 1 t d = tpBlk V c 1 t :=
  (dat.before_in_eq_fetched 1 rfl (fun _ => rfl) (fun _ _ _ => rfl) (fun t => by rw [hafter]; unfold Dat.blockOf tpBlk; rw [hA]; try rfl) t d).trans
    (by unfold Dat.fetched Dat.blockOf tpBlk; rw [hA]; try rfl)

/-- The proof data of the tensor-product region: the operands' buffers keep their blocks, the output's buffer holds
    the product of the two blocks; the invariant is the untouched rest of the scoped memory and the generator
    register; nothing is owed. -/
def tpDat (c : Dev nD) : Dat τ (Elt F) Unit ℕ (UR sig nD τ) ℕ cfg0 c where
  A w := V c (Pipeline.arrRef spec0 w)
  after w t := match w with
    | ⟨0, _⟩ => tpBlk V c 0 t
    | ⟨1, _⟩ => tpBlk V c 1 t
    | ⟨2, _⟩ => k0_pay1 (tpBlk V c 0 t) (tpBlk V c 1 t)
  Φ _ := Pipeline.ΦA spec0 c
  q _ := fullShare
  owed _ := 0

theorem tp_A (c : Dev nD) (w : Fin cfg0.W) : (tpDat V c).A w = V c (Pipeline.arrRef spec0 w) := by dsimp only [tpDat]
theorem tp_after_0 (c : Dev nD) (t : Fin cfg0.N) : (tpDat V c).after 0 t = tpBlk V c 0 t := by dsimp only [tpDat]
theorem tp_after_1 (c : Dev nD) (t : Fin cfg0.N) : (tpDat V c).after 1 t = tpBlk V c 1 t := by dsimp only [tpDat]
theorem tp_after_2 (c : Dev nD) (t : Fin cfg0.N) : (tpDat V c).after 2 t = k0_pay1 (tpBlk V c 0 t) (tpBlk V c 1 t) := by dsimp only [tpDat]
theorem tp_bef_0 (c : Dev nD) (t : Fin cfg0.N) (d) : (tpDat V c).before 0 t d = tpBlk V c 0 t :=
  tp_before_0 V (tpDat V c) (tp_A V c 0) (tp_after_0 V c) t d
theorem tp_bef_1 (c : Dev nD) (t : Fin cfg0.N) (d) : (tpDat V c).before 1 t d = tpBlk V c 1 t :=
  tp_before_1 V (tpDat V c) (tp_A V c 1) (tp_after_1 V c) t d

/-- What the tensor-product body is called with at point `t`, -/
def tpPre (c : Dev nD) (t : Fin cfg0.N) : sProp 𝕄 :=
  iprop((tpDat V c).Φ t.castSucc ∗ (tpDat V c).owesAt () t.castSucc
    ∗ (∃ d, owns (c : Thread nD τ) (st0_0 t) fullShare ((tpDat V c).before 0 t d))
    ∗ (∃ d, owns (c : Thread nD τ) (st0_1 t) fullShare ((tpDat V c).before 1 t d))
    ∗ (∃ d, owns (c : Thread nD τ) (st0_2 t) fullShare ((tpDat V c).before 2 t d)))
/-- and what it returns. -/
def tpPost (c : Dev nD) (t : Fin cfg0.N) : sProp 𝕄 :=
  iprop((tpDat V c).Φ t.succ ∗ (tpDat V c).owesAt () t.succ
    ∗ owns (c : Thread nD τ) (st0_0 t) fullShare ((tpDat V c).after 0 t)
    ∗ owns (c : Thread nD τ) (st0_1 t) fullShare ((tpDat V c).after 1 t)
    ∗ owns (c : Thread nD τ) (st0_2 t) fullShare ((tpDat V c).after 2 t))

theorem tp_sound (c : Dev nD) (t : Fin cfg0.N) :
    tpPre V c t ⊢ wp frame (wpE (defs₀ (F := F)) Variants.none c none) Set.univ (bodyAt0 t) (fun _ => tpPost V c t) := by
  unfold tpPre tpPost bodyAt0
  simp only [tp_bef_0, tp_bef_1]
  rw [show (tpDat V c).Φ t.succ = (tpDat V c).Φ t.castSucc from rfl,
    show (tpDat V c).owesAt () t.succ = (tpDat V c).owesAt () t.castSucc from rfl,
    tp_after_0, tp_after_1, tp_after_2]
  iintro ⟨HΦ, Ho, ⟨%d0, H0⟩, ⟨%d1, H1⟩, ⟨%d2, H2⟩⟩
  iapply (tp_body c Set.univ _ _ _ _ _ _ _ (tpBlk V c 0 t) (tpBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem tp_obligation (c : Dev nD) : BodyObligation (tpDat (F := F) V c) (defs₀ (F := F)) Variants.none () Set.univ := fun t => by
  rw [bigSep_W0, bigSep_W0]
  exact tp_sound V c t

/-! # The linear region -/

/-- Window `w`'s block at point `t` of the linear region, read off its array as the region finds it. -/
def linBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem lin_before_0 {c : Dev nD} (dat : Dat τ (Elt F) Unit ℕ (UR sig nD τ) ℕ cfg1 c) (hA : dat.A 0 = V c (Pipeline.arrRef spec1 0))
    (hafter : ∀ t, dat.after 0 t = linBlk V c 0 t) (t : Fin cfg1.N) (d) : dat.before 0 t d = linBlk V c 0 t :=
  (dat.before_in_eq_fetched 0 rfl (fun _ => rfl) (fun _ _ _ => rfl) (fun t => by rw [hafter]; unfold Dat.blockOf linBlk; rw [hA]; try rfl) t d).trans
    (by unfold Dat.fetched Dat.blockOf linBlk; rw [hA]; try rfl)
theorem lin_before_1 {c : Dev nD} (dat : Dat τ (Elt F) Unit ℕ (UR sig nD τ) ℕ cfg1 c) (hA : dat.A 1 = V c (Pipeline.arrRef spec1 1))
    (hafter : ∀ t, dat.after 1 t = linBlk V c 1 t) (t : Fin cfg1.N) (d) : dat.before 1 t d = linBlk V c 1 t :=
  (dat.before_in_eq_fetched 1 rfl (fun _ => rfl) (fun _ _ _ => rfl) (fun t => by rw [hafter]; unfold Dat.blockOf linBlk; rw [hA]; try rfl) t d).trans
    (by unfold Dat.fetched Dat.blockOf linBlk; rw [hA]; try rfl)
/-- The bias window is fetched at the first K-step of an output block only; at the other steps its block index has not
    moved and the body left the block in place. -/
theorem lin_before_2 {c : Dev nD} (dat : Dat τ (Elt F) Unit ℕ (UR sig nD τ) ℕ cfg1 c) (hA : dat.A 2 = V c (Pipeline.arrRef spec1 2))
    (hafter : ∀ t, dat.after 2 t = linBlk V c 2 t) (t : Fin cfg1.N) (d) : dat.before 2 t d = linBlk V c 2 t :=
  (dat.before_in_eq_fetched 2 rfl (fun _ => rfl) (fun _ _ _ => rfl) (fun t => by rw [hafter]; unfold Dat.blockOf linBlk; rw [hA]; try rfl) t d).trans
    (by unfold Dat.fetched Dat.blockOf linBlk; rw [hA]; try rfl)

/-- What the accumulator holds before point `t`: after a point, that point's product added to what was there, which
    at the first K-step of an output block is zeros. (Before point 0 nothing is known; the value given is never used.) -/
def accBefore (c : Dev nD) : ℕ → Vec F S64x512 .f32
  | 0 => k1_pay1
  | t + 1 =>
    if h : t < cfg1.N then
      k1_pay2 (linBlk V c 0 ⟨t, h⟩) (linBlk V c 1 ⟨t, h⟩) (if t % 16 = 0 then k1_pay1 else accBefore c t)
    else accBefore c t

theorem accBefore_succ (c : Dev nD) (t : Fin cfg1.N) :
    accBefore V c (t.val + 1) = k1_pay2 (linBlk V c 0 t) (linBlk V c 1 t) (if t.val % 16 = 0 then k1_pay1 else accBefore V c t.val) := by
  rw [accBefore, dif_pos t.isLt]

/-- The kernel's accumulator: the scratch buffer, whole. -/
abbrev accRef : Memref sig .tc .vmem S64x512 .f32 := Memref.whole cc1_scratch0

/-- The scoped buffers the linear region neither stages nor uses (the tensor-product region's staging buffers), each at
    some contents. -/
def linIdle (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The linear region's invariant before point `t`: the accumulator at `accBefore` (at anything before a first K-step),
    the unused scoped buffers and the generator register. -/
def linInv (c : Dev nD) (t : ℕ) : sProp 𝕄 :=
  iprop((∃ d, owns (c : Thread nD τ) accRef fullShare d ∗ ⌜t % 16 ≠ 0 → d = accBefore V c t⌝) ∗ linIdle (F := F) c ∗ (∃ r, prngReg c r))

/-- The proof data of the linear region. -/
def linDat (c : Dev nD) : Dat τ (Elt F) Unit ℕ (UR sig nD τ) ℕ cfg1 c where
  A w := V c (Pipeline.arrRef spec1 w)
  after w t := match w with
    | ⟨0, _⟩ => linBlk V c 0 t
    | ⟨1, _⟩ => linBlk V c 1 t
    | ⟨2, _⟩ => linBlk V c 2 t
    | ⟨3, _⟩ => k1_pay3 (accBefore V c (t.val + 1)) (linBlk V c 2 t)
  Φ t := linInv V c t.val
  q _ := fullShare
  owed _ := 0

theorem lin_A (c : Dev nD) (w : Fin cfg1.W) : (linDat V c).A w = V c (Pipeline.arrRef spec1 w) := by dsimp only [linDat]
theorem lin_after_0 (c : Dev nD) (t : Fin cfg1.N) : (linDat V c).after 0 t = linBlk V c 0 t := by dsimp only [linDat]
theorem lin_after_1 (c : Dev nD) (t : Fin cfg1.N) : (linDat V c).after 1 t = linBlk V c 1 t := by dsimp only [linDat]
theorem lin_after_2 (c : Dev nD) (t : Fin cfg1.N) : (linDat V c).after 2 t = linBlk V c 2 t := by dsimp only [linDat]
theorem lin_after_3 (c : Dev nD) (t : Fin cfg1.N) : (linDat V c).after 3 t = k1_pay3 (accBefore V c (t.val + 1)) (linBlk V c 2 t) := by dsimp only [linDat]
theorem lin_bef_0 (c : Dev nD) (t : Fin cfg1.N) (d) : (linDat V c).before 0 t d = linBlk V c 0 t :=
  lin_before_0 V (linDat V c) (lin_A V c 0) (lin_after_0 V c) t d
theorem lin_bef_1 (c : Dev nD) (t : Fin cfg1.N) (d) : (linDat V c).before 1 t d = linBlk V c 1 t :=
  lin_before_1 V (linDat V c) (lin_A V c 1) (lin_after_1 V c) t d
theorem lin_bef_2 (c : Dev nD) (t : Fin cfg1.N) (d) : (linDat V c).before 2 t d = linBlk V c 2 t :=
  lin_before_2 V (linDat V c) (lin_A V c 2) (lin_after_2 V c) t d

/-- The two branch conditions over the grid, in closed form. -/
theorem first_iff : ∀ t : Fin cfg1.N, atFirstK (grid1.coords t) ↔ t.val % 16 = 0 :=
  (by decide +kernel : ∀ t : Fin grid1.N, atFirstK (grid1.coords t) ↔ t.val % 16 = 0)
theorem last_iff : ∀ t : Fin cfg1.N, atLastK (grid1.coords t) ↔ t.val % 16 = 15 :=
  (by decide +kernel : ∀ t : Fin grid1.N, atLastK (grid1.coords t) ↔ t.val % 16 = 15)
/-- The output window is idle, and not written back, away from the last K-step, and live at it. -/
theorem out_idle : ∀ t : Fin cfg1.N, t.val % 16 ≠ 15 → cfg1.idle 3 (grid1.coords t) = true :=
  (by decide +kernel : ∀ t : Fin grid1.N, t.val % 16 ≠ 15 → idle1 3 (grid1.coords t) = true)
theorem out_live : ∀ t : Fin cfg1.N, t.val % 16 = 15 → cfg1.idle 3 (grid1.coords t) = false :=
  (by decide +kernel : ∀ t : Fin grid1.N, t.val % 16 = 15 → idle1 3 (grid1.coords t) = false)
theorem out_noflush (t : Fin cfg1.N) (h : t.val % 16 ≠ 15) : (cfg1.win 3).flush t = false :=
  Bool.eq_false_iff.mpr fun hf => h ((flush1_3 t).mp hf)

/-- What the linear body is called with at point `t`, -/
def linPre (c : Dev nD) (t : Fin cfg1.N) : sProp 𝕄 :=
  iprop((linDat V c).Φ t.castSucc ∗ (linDat V c).owesAt () t.castSucc
    ∗ (∃ d, owns (c : Thread nD τ) (st1_0 t) fullShare ((linDat V c).before 0 t d))
    ∗ (∃ d, owns (c : Thread nD τ) (st1_1 t) fullShare ((linDat V c).before 1 t d))
    ∗ (∃ d, owns (c : Thread nD τ) (st1_2 t) fullShare ((linDat V c).before 2 t d))
    ∗ (∃ d, owns (c : Thread nD τ) (st1_3 t) fullShare ((linDat V c).before 3 t d)))
/-- and what it returns. -/
def linPost (c : Dev nD) (t : Fin cfg1.N) : sProp 𝕄 :=
  iprop((linDat V c).Φ t.succ ∗ (linDat V c).owesAt () t.succ
    ∗ (linDat V c).leavesExact 0 t ∗ (linDat V c).leavesExact 1 t ∗ (linDat V c).leavesExact 2 t ∗ (linDat V c).leavesExact 3 t)

set_option maxHeartbeats 2000000 in
theorem lin_sound (c : Dev nD) (t : Fin cfg1.N) :
    linPre V c t ⊢ wp frame (wpE (defs₀ (F := F)) Variants.none c none) Set.univ (bodyAt1 t) (fun _ => linPost V c t) := by
  unfold linPre linPost bodyAt1
  simp only [lin_bef_0, lin_bef_1, lin_bef_2]
  rw [show (linDat V c).owesAt () t.succ = (linDat V c).owesAt () t.castSucc from rfl,
    show (linDat V c).Φ t.succ = linInv V c (t.val + 1) from rfl,
    show (linDat V c).Φ t.castSucc = linInv V c t.val from rfl,
    show (linDat V c).leavesExact 0 t = owns (c : Thread nD τ) (st1_0 t) fullShare ((linDat V c).after 0 t) from rfl, lin_after_0,
    show (linDat V c).leavesExact 1 t = owns (c : Thread nD τ) (st1_1 t) fullShare ((linDat V c).after 1 t) from rfl, lin_after_1,
    show (linDat V c).leavesExact 2 t = owns (c : Thread nD τ) (st1_2 t) fullShare ((linDat V c).after 2 t) from rfl, lin_after_2]
  unfold linInv
  by_cases h0 : t.val % 16 = 0
  · have hl : t.val % 16 ≠ 15 := by omega
    rw [Dat.leavesExact_idle (linDat V c) 3 t (out_idle t hl) (out_noflush t hl)]
    iintro ⟨⟨⟨%ds, HS, -⟩, Hidle, Hg⟩, Ho, ⟨%d0, H0⟩, ⟨%d1, H1⟩, ⟨%d2, H2⟩, ⟨%d3, H3⟩⟩
    iapply (lin_first c Set.univ (grid1.coords t) _ _ _ _ _ _ _ _ _ _ ((first_iff t).mpr h0) (fun h => hl ((last_iff t).mp h)) (linBlk V c 0 t) (linBlk V c 1 t) _)
    isplitl [H0]; · iexact H0
    isplitl [H1]; · iexact H1
    isplitl [HS]; · iexists _; iexact HS
    iintro ⟨H0, H1, HS⟩
    isplitl [HS Hidle Hg]
    · isplitl [HS]
      · iexists _; isplitl [HS]; · iexact HS
        ipureintro; intro _; rw [accBefore_succ, if_pos h0]
      isplitl [Hidle]; · iexact Hidle
      iexact Hg
    isplitl [Ho]; · iexact Ho
    isplitl [H0]; · iexact H0
    isplitl [H1]; · iexact H1
    isplitl [H2]; · iexact H2
    iexists _; iexact H3
  · by_cases h15 : t.val % 16 = 15
    · rw [show (linDat V c).leavesExact 3 t = owns (c : Thread nD τ) (st1_3 t) fullShare ((linDat V c).after 3 t) from by
        unfold Dat.leavesExact; rw [out_live t h15], lin_after_3, accBefore_succ, if_neg h0]
      iintro ⟨⟨⟨%ds, HS, %hds⟩, Hidle, Hg⟩, Ho, ⟨%d0, H0⟩, ⟨%d1, H1⟩, ⟨%d2, H2⟩, ⟨%d3, H3⟩⟩
      obtain rfl := hds h0
      iapply (lin_last c Set.univ (grid1.coords t) _ _ _ _ _ _ _ _ _ _ (fun h => h0 ((first_iff t).mp h)) ((last_iff t).mpr h15) (linBlk V c 0 t) (linBlk V c 1 t) (linBlk V c 2 t) (accBefore V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hidle Hg]
      · isplitl [HS]
        · iexists _; isplitl [HS]; · iexact HS
          ipureintro; intro _; rfl
        isplitl [Hidle]; · iexact Hidle
        iexact Hg
      isplitl [Ho]; · iexact Ho
      isplitl [H0]; · iexact H0
      isplitl [H1]; · iexact H1
      isplitl [H2]; · iexact H2
      iexact H3
    · rw [Dat.leavesExact_idle (linDat V c) 3 t (out_idle t h15) (out_noflush t h15)]
      iintro ⟨⟨⟨%ds, HS, %hds⟩, Hidle, Hg⟩, Ho, ⟨%d0, H0⟩, ⟨%d1, H1⟩, ⟨%d2, H2⟩, ⟨%d3, H3⟩⟩
      obtain rfl := hds h0
      iapply (lin_mid c Set.univ (grid1.coords t) _ _ _ _ _ _ _ _ _ _ (fun h => h0 ((first_iff t).mp h)) (fun h => h15 ((last_iff t).mp h)) (linBlk V c 0 t) (linBlk V c 1 t) (accBefore V c t.val) _)
      isplitl [H0]; · iexact H0
      isplitl [H1]; · iexact H1
      isplitl [HS]; · iexact HS
      iintro ⟨H0, H1, HS⟩
      isplitl [HS Hidle Hg]
      · isplitl [HS]
        · iexists _; isplitl [HS]; · iexact HS
          ipureintro; intro _; rw [accBefore_succ, if_neg h0]
        isplitl [Hidle]; · iexact Hidle
        iexact Hg
      isplitl [Ho]; · iexact Ho
      isplitl [H0]; · iexact H0
      isplitl [H1]; · iexact H1
      isplitl [H2]; · iexact H2
      iexists _; iexact H3

theorem lin_obligation (c : Dev nD) : BodyObligation (linDat (F := F) V c) (defs₀ (F := F)) Variants.none () Set.univ := fun t => by
  rw [bigSep_W1, bigSep_W1]
  exact lin_sound V c t

end Regions

variable (m : (ℓ : Loc nD τ sig) → Buf (Elt F) ℓ) (ρ : Dev nD → PrngReg)

/-! # The run: @main's four segments from the launch to the return

## The buffer contents at each segment boundary -/

/-- Core `c`'s buffers at launch; -/
abbrev W0 : Dev nD → Valuation τ sig (Elt F) := fun c b => m (c, b)
/-- after the first host stretch (the two lookups): what the tensor-product region is entered with; -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after the tensor-product region: its arrays at what its write-backs leave, every other buffer as entered; -/
def W2 (c : Dev nD) : Valuation τ sig (Elt F) :=
  Pipeline.withArrays spec0 c (W1 m c) fun w => (tpDat (V1 m) c).arrAt w cfg0.N
theorem W2_arr (c : Dev nD) (w : Fin cfg0.W) :
    W2 m c (Proc.devRef .tc (Pipeline.arrRef spec0 w)) = (tpDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem tp_final (c : Dev nD) (w : Fin cfg0.W) : (tpDat (V1 m) c).arrAt w cfg0.N = V2 m c (Pipeline.arrRef spec0 w) :=
  (W2_arr m c w).symm
theorem tp_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the two reshapes: what the linear region is entered with; -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- and after the linear region. -/
def W4 (c : Dev nD) : Valuation τ sig (Elt F) :=
  Pipeline.withArrays spec1 c (W3 m c) fun w => (linDat (V3 m) c).arrAt w cfg1.N
theorem W4_arr (c : Dev nD) (w : Fin cfg1.W) :
    W4 m c (Proc.devRef .tc (Pipeline.arrRef spec1 w)) = (linDat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem lin_final (c : Dev nD) (w : Fin cfg1.W) : (linDat (V3 m) c).arrAt w cfg1.N = V4 m c (Pipeline.arrRef spec1 w) :=
  (W4_arr m c w).symm
theorem lin_rest (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => tpDat (V1 m) c
  | ⟨1, _⟩ => fun c => linDat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The tensor-product region: entered with every unscoped buffer at `W1`, left at `W2`. Its arrays are split out of
    the unscoped buffers and put back at their final contents; the generator register goes into the invariant and
    comes back; nothing is owed. -/
def tpReg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (tp_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (tp_final m c) (tp_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The linear region: entered with every unscoped buffer at `W3`, left at `W4`. The scratch buffer and the other
    unused scoped buffers go into the invariant (the accumulator at anything, before the first point) and come back at
    the end (the accumulator's named contents forgotten). -/
def linReg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (lin_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = linInv (V3 m) c 0 from rfl]
    change iprop(_ ∗ _ ∗ Pipeline.scopedRest spec1 c) ⊢ _
    rw [scopedRest1_eq]; unfold linInv linIdle
    iintro ⟨Hp, -, ⟨H1, H2, H3, H4, H5, H6, ⟨%f, HS⟩⟩⟩
    isplitl [HS]
    · iexists f; isplitl [HS]
      · rw [owns_whole]; iexact HS
      ipureintro; intro h; exact absurd rfl h
    isplitl [H1 H2 H3 H4 H5 H6]
    · isplitl [H1]; · iexact H1
      isplitl [H2]; · iexact H2
      isplitl [H3]; · iexact H3
      isplitl [H4]; · iexact H4
      isplitl [H5]; · iexact H5
      iexact H6
    iexact Hp
  hout c := by
    rw [Pipeline.ownSems0_none, show (pdats m 1 c).Φ (Fin.last _) = linInv (V3 m) c (Fin.last cfg1.N).val from rfl]
    change _ ⊢ iprop(_ ∗ _ ∗ Pipeline.scopedRest spec1 c)
    rw [scopedRest1_eq]; unfold linInv linIdle
    iintro ⟨⟨%d, HS, -⟩, ⟨H1, H2, H3, H4, H5, H6⟩, Hp⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [H6]; · iexact H6
    iexists d; rw [owns_whole]; exact .rfl
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (lin_final m c) (lin_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (tpReg m),
    .host (hseg hostOps1 hostOps1_sub hostOps1_fresh (W2 m)),
    .region (linReg m) ]
theorem main_run (c : Dev nD) : main (F := F) c = Pipeline.Seg.run (segs m) := (main_chain c).trans (by chain_rfl)

set_option backward.isDefEq.respectTransparency.types false in
/-- At the compiled mesh, from any memory with zero counters: every weakly fair execution of @main on the TensorCores
    terminates, nothing faulting, and in every final state each buffer outside the kernels' scoped memory holds the
    last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.BitsFrame.lean ====
/-
  The frame claim read off the run: every argument array ends holding its launch contents, because no host operation
  writes an argument, the tensor-product region's arrays are two lookup results and its own output, and of the linear
  region's arrays the only argument is the weight matrix, an input window's array, which a pipeline never writes.
  The same run names what the result buffer holds at the end.
-/
import proofs.«181320_j70016556860030_2_alg».proof.Proof.BitsRegions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- `main_arg0` is no window's array and no host operation writes it: it reaches the end as launched. -/
theorem W4_arg0 (c : Dev nD) : W4 m c (Proc.devRef .tc main_arg0) = m ((c : Thread nD τ).loc main_arg0) :=
  (W4_of_ne m c main_arg0 (by decide)).trans <|
  (StableHlo.after_of_writes_sub hostOps1 _ hostOps1_writes (by decide)).trans <|
  (W2_of_ne m c main_arg0 (by decide)).trans <|
  (StableHlo.after_of_writes_sub hostOps0 _ hostOps0_writes (by decide)).trans rfl
/-- `main_arg1` is no window's array and no host operation writes it: it reaches the end as launched. -/
theorem W4_arg1 (c : Dev nD) : W4 m c (Proc.devRef .tc main_arg1) = m ((c : Thread nD τ).loc main_arg1) :=
  (W4_of_ne m c main_arg1 (by decide)).trans <|
  (StableHlo.after_of_writes_sub hostOps1 _ hostOps1_writes (by decide)).trans <|
  (W2_of_ne m c main_arg1 (by decide)).trans <|
  (StableHlo.after_of_writes_sub hostOps0 _ hostOps0_writes (by decide)).trans rfl
/-- `main_arg2` is no window's array and no host operation writes it: it reaches the end as launched. -/
theorem W4_arg2 (c : Dev nD) : W4 m c (Proc.devRef .tc main_arg2) = m ((c : Thread nD τ).loc main_arg2) :=
  (W4_of_ne m c main_arg2 (by decide)).trans <|
  (StableHlo.after_of_writes_sub hostOps1 _ hostOps1_writes (by decide)).trans <|
  (W2_of_ne m c main_arg2 (by decide)).trans <|
  (StableHlo.after_of_writes_sub hostOps0 _ hostOps0_writes (by decide)).trans rfl
/-- `main_arg3` is no window's array and no host operation writes it: it reaches the end as launched. -/
theorem W4_arg3 (c : Dev nD) : W4 m c (Proc.devRef .tc main_arg3) = m ((c : Thread nD τ).loc main_arg3) :=
  (W4_of_ne m c main_arg3 (by decide)).trans <|
  (StableHlo.after_of_writes_sub hostOps1 _ hostOps1_writes (by decide)).trans <|
  (W2_of_ne m c main_arg3 (by decide)).trans <|
  (StableHlo.after_of_writes_sub hostOps0 _ hostOps0_writes (by decide)).trans rfl
/-- `main_arg5` is no window's array and no host operation writes it: it reaches the end as launched. -/
theorem W4_arg5 (c : Dev nD) : W4 m c (Proc.devRef .tc main_arg5) = m ((c : Thread nD τ).loc main_arg5) :=
  (W4_of_ne m c main_arg5 (by decide)).trans <|
  (StableHlo.after_of_writes_sub hostOps1 _ hostOps1_writes (by decide)).trans <|
  (W2_of_ne m c main_arg5 (by decide)).trans <|
  (StableHlo.after_of_writes_sub hostOps0 _ hostOps0_writes (by decide)).trans rfl

/-- The weight matrix is the linear region's second input window's array: the region leaves it as entered, and nothing
    before the region writes it. -/
theorem W4_arg4 (c : Dev nD) : W4 m c (Proc.devRef .tc main_arg4) = m ((c : Thread nD τ).loc main_arg4) :=
  (W4_arr m c 1).trans <| ((linDat (V3 m) c).arrAt_in 1 rfl _).trans <| (lin_A (V3 m) c 1).trans <|
  (StableHlo.after_of_writes_sub hostOps1 _ hostOps1_writes (by decide)).trans <|
  (W2_of_ne m c main_arg4 (by decide)).trans <|
  (StableHlo.after_of_writes_sub hostOps0 _ hostOps0_writes (by decide)).trans rfl

/-- The result buffer is the linear region's output window's array: it ends at what that region's write-backs leave. -/
theorem W4_out (c : Dev nD) : W4 m c (Proc.devRef .tc main_v19) = (linDat (V3 m) c).arrAt 3 cfg1.N := W4_arr m c 3

/-- The frame: every weakly fair execution terminates, nothing faulting, every argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_arg0 m c),
      (h c _ (mem_uc main_arg1 (by decide))).trans (W4_arg1 m c),
      (h c _ (mem_uc main_arg2 (by decide))).trans (W4_arg2 m c),
      (h c _ (mem_uc main_arg3 (by decide))).trans (W4_arg3 m c),
      (h c _ (mem_uc main_arg4 (by decide))).trans (W4_arg4 m c),
      (h c _ (mem_uc main_arg5 (by decide))).trans (W4_arg5 m c)⟩) (run m ρ)

/-- The same run with the result named. -/
theorem run_out : θ_run defs (onTc (τ := τ) (main (F := F))) ⟨m, fun _ => 0, ρ⟩ (fun r => ∀ c : Dev nD,
      r.2.mem ((c.tc : Thread nD τ).loc main_v19) = (linDat (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v19 (by decide))).trans (W4_out m c),
      (h c _ (mem_uc main_arg0 (by decide))).trans (W4_arg0 m c),
      (h c _ (mem_uc main_arg1 (by decide))).trans (W4_arg1 m c),
      (h c _ (mem_uc main_arg2 (by decide))).trans (W4_arg2 m c),
      (h c _ (mem_uc main_arg3 (by decide))).trans (W4_arg3 m c),
      (h c _ (mem_uc main_arg4 (by decide))).trans (W4_arg4 m c),
      (h c _ (mem_uc main_arg5 (by decide))).trans (W4_arg5 m c)⟩) (run m ρ)

end Cert.Kernel.Hand

end
-- ==== Proof.IdealBody.lean ====
/-
  The two kernel bodies run on whole staging buffers.

  The tensor-product body reads a block of 32 batches of each operand and stores, whole, their batched product
  (contracted over the 128 sequence positions) into the output buffer.

  The linear body keeps an accumulator of shape [64, 512] in a scratch buffer across the 16 K-steps of one output
  block: at the first step it is zeroed, at every step the product of the [64, 4096] activation block with the
  [512, 4096] weight block (contracted over the 4096 columns) is added to it, and at the last step the bias row is
  added and the result stored, whole, into the output buffer. Which of the two branches a step takes depends on
  the K coordinate only, so the body is run once per case: first, middle, last.

  Each statement names what every buffer holds afterwards through the bodies' pure payload terms.
-/
import proofs.«181320_j70016556860030_2_alg».proof.Proof.Gen.KernelIdeal.Launch
import proofs.«181320_j70016556860030_2_alg».proof.Proof.Gen.KernelIdeal.Skeleton
import proofs.«181320_j70016556860030_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, however they are spelt, are the zero function. -/
theorem zero3 : (![0, 0, 0] : Fin 3 → Nat) = fun _ => 0 := by funext a; fin_cases a <;> rfl
theorem zero2 : (![0, 0] : Fin 2 → Nat) = fun _ => 0 := by funext a; fin_cases a <;> rfl

set_option maxHeartbeats 1000000 in
/-- The tensor-product body on whole staging buffers: both operand blocks are read, the output buffer is loaded and
    then stored whole, so it ends holding the batched product of the two blocks; the operands are left as found. -/
theorem tp_body (c : Dev nD) (E : Set ℕ) (i : grid0.Coords)
    (arg1 : Memref sig .tc .vmem S32x128x256 .bf16) (harg1 : arg1.IsWhole)
    (arg2 : Memref sig .tc .vmem S32x128x256 .bf16) (harg2 : arg2.IsWhole)
    (arg3 : Memref sig .tc .vmem S32x256x256 .bf16) (harg3 : arg3.IsWhole)
    (x0 x1 : Vec F S32x128x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__tp_kernel i arg1 harg1 arg2 harg2 arg3 harg3) K := by
  simp only [cc0__tp_kernel_eq_skeleton]; unfold cc0__tp_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero3 inb_S32x256x256_S32x256x256_0_0_0 y⟩),
    View.canon_unit_zero zero3]
  simp only [View.readAt_eq_ld, View.ld_unit_zero (S := S32x128x256) zero3]

/-- The first branch of the linear body is taken exactly when the K coordinate is 0 (the accumulator is reset there), -/
abbrev atFirstK (i : grid1.Coords) : Prop := (Scalar.cmpi .ne (Scalar.extui (Scalar.cmpi .eq (BitVec.ofNat 32 (i 1).val) 0#32)) 0#32) = 1#1
/-- and the second exactly when it is the last one (the bias is added and the output block stored there). -/
abbrev atLastK (i : grid1.Coords) : Prop := k1_cond2 i = 1#1

set_option maxHeartbeats 1000000 in
/-- The linear body at the first K-step of an output block: the accumulator is stored whole with zeros, then read back and stored whole with itself plus the product of the two operand blocks; the bias and output buffers are not touched. -/
theorem lin_first (c : Dev nD) (E : Set ℕ) (i : grid1.Coords)
    (arg2 : Memref sig .tc .vmem S64x4096 .bf16) (harg2 : arg2.IsWhole) (arg3 : Memref sig .tc .vmem S512x4096 .f32) (harg3 : arg3.IsWhole)
    (arg4 : Memref sig .tc .vmem S1x512 .f32) (harg4 : arg4.IsWhole) (arg5 : Memref sig .tc .vmem S64x512 .f32) (harg5 : arg5.IsWhole)
    (arg6 : Memref sig .tc .vmem S64x512 .f32) (harg6 : arg6.IsWhole) (hc0 : atFirstK i) (hc1 : ¬ atLastK i)
    (x0 : Vec F S64x4096 .bf16) (x1 : Vec F S512x4096 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1 ∗ owns (c : Thread nD τ) arg6 fullShare (k1_pay2 x0 x1 (k1_pay1 (F := F)))) -∗ K ⟨⟩))
      ⊢ wp frame (wpE (defs₀ (F := F)) Variants.none c none) E (cc1__lin_kernel i arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons.mpr (Or.inl rfl), View.mem_set_unit_zero zero2 inb_S64x512_S64x512_0_0 y⟩),
    View.canon_cons_unit_zero (S := S64x512) zero2]
  try rw [View.readCov_unit_zero (S := S64x512) _ zero2]
  simp only [View.readAt_eq_ld, View.ld_unit_zero (S := S64x4096) zero2, View.ld_unit_zero (S := S512x4096) zero2, View.ld_unit_zero (S := S64x512) zero2, View.ld_unit_zero (S := S1x512) zero2]

set_option maxHeartbeats 1000000 in
/-- The linear body at a K-step that is neither first nor last: the accumulator is read and stored whole with itself plus the product of the two operand blocks. -/
theorem lin_mid (c : Dev nD) (E : Set ℕ) (i : grid1.Coords)
    (arg2 : Memref sig .tc .vmem S64x4096 .bf16) (harg2 : arg2.IsWhole) (arg3 : Memref sig .tc .vmem S512x4096 .f32) (harg3 : arg3.IsWhole)
    (arg4 : Memref sig .tc .vmem S1x512 .f32) (harg4 : arg4.IsWhole) (arg5 : Memref sig .tc .vmem S64x512 .f32) (harg5 : arg5.IsWhole)
    (arg6 : Memref sig .tc .vmem S64x512 .f32) (harg6 : arg6.IsWhole) (hc0 : ¬ atFirstK i) (hc1 : ¬ atLastK i)
    (x0 : Vec F S64x4096 .bf16) (x1 : Vec F S512x4096 .f32) (xs : Vec F S64x512 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1 ∗ owns (c : Thread nD τ) arg6 fullShare (k1_pay2 x0 x1 xs)) -∗ K ⟨⟩))
      ⊢ wp frame (wpE (defs₀ (F := F)) Variants.none c none) E (cc1__lin_kernel i arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons.mpr (Or.inl rfl), View.mem_set_unit_zero zero2 inb_S64x512_S64x512_0_0 y⟩),
    View.canon_cons_unit_zero (S := S64x512) zero2]
  try rw [View.readCov_unit_zero (S := S64x512) _ zero2]
  simp only [View.readAt_eq_ld, View.ld_unit_zero (S := S64x4096) zero2, View.ld_unit_zero (S := S512x4096) zero2, View.ld_unit_zero (S := S64x512) zero2, View.ld_unit_zero (S := S1x512) zero2]

set_option maxHeartbeats 1000000 in
/-- The linear body at the last K-step: the accumulator is updated as at a middle step, then read back, the bias row is added to every row, and the output buffer is stored whole with the sum. -/
theorem lin_last (c : Dev nD) (E : Set ℕ) (i : grid1.Coords)
    (arg2 : Memref sig .tc .vmem S64x4096 .bf16) (harg2 : arg2.IsWhole) (arg3 : Memref sig .tc .vmem S512x4096 .f32) (harg3 : arg3.IsWhole)
    (arg4 : Memref sig .tc .vmem S1x512 .f32) (harg4 : arg4.IsWhole) (arg5 : Memref sig .tc .vmem S64x512 .f32) (harg5 : arg5.IsWhole)
    (arg6 : Memref sig .tc .vmem S64x512 .f32) (harg6 : arg6.IsWhole) (hc0 : ¬ atFirstK i) (hc1 : atLastK i)
    (x0 : Vec F S64x4096 .bf16) (x1 : Vec F S512x4096 .f32) (x2 : Vec F S1x512 .f32) (xs : Vec F S64x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__lin_kernel i arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons.mpr (Or.inl rfl), View.mem_set_unit_zero zero2 inb_S64x512_S64x512_0_0 y⟩),
      View.canon_cons_unit_zero (S := S64x512) zero2]
    try rw [View.readCov_unit_zero (S := S64x512) _ zero2]
    simp only [View.readAt_eq_ld, View.ld_unit_zero (S := S64x4096) zero2, View.ld_unit_zero (S := S512x4096) zero2, View.ld_unit_zero (S := S64x512) zero2, View.ld_unit_zero (S := S1x512) zero2]
  iexists _; isplitr
  swap; · iexact HS
  ipureintro
  sl_unfold_run_names
  rw [View.read_writes_eq_canon _ _ _ (fun y => ⟨_, List.mem_cons.mpr (Or.inl rfl), View.mem_set_unit_zero zero2 inb_S64x512_S64x512_0_0 y⟩),
    View.canon_cons_unit_zero (S := S64x512) zero2]
  try rw [View.readCov_unit_zero (S := S64x512) _ zero2]
  simp only [View.readAt_eq_ld, View.ld_unit_zero (S := S64x4096) zero2, View.ld_unit_zero (S := S512x4096) zero2, View.ld_unit_zero (S := S64x512) zero2, View.ld_unit_zero (S := S1x512) zero2]

end Cert.KernelIdeal.Hand

end
-- ==== Proof.IdealRegions.lean ====
/-
  The frame of the whole program, and what its result buffer holds at the end.

  @main is a stretch of host operations (the two embedding lookups), the tensor-product region, two host reshapes,
  and the linear region. Per region, at the buffer contents `V` the region is entered with: each window's block at a
  grid point, what the body leaves in each staging buffer there, and the body's obligation at every point.

  The tensor-product region writes, at each of its 2 points, the batched product of that point's operand blocks.

  The linear region carries its accumulator across the 16 K-steps of each of its 2 output blocks. `accBefore V c t`
  is what the accumulator holds before point `t`: the previous point's update of what was there, restarting from
  zeros at the first K-step of a block. The region's invariant holds the scratch buffer at those contents (at
  anything before a first K-step, where the body overwrites it without reading). The output window is stored at the
  last K-step only and is left untouched, and not written back, elsewhere.

  The run then threads the buffer contents through @main's four segments; its post says every buffer outside the
  kernels' scoped memory ends at the last of those contents, from which both the unchanged arguments and the result
  are read.
-/
import proofs.«181320_j70016556860030_2_alg».proof.Proof.IdealBody
import proofs.«181320_j70016556860030_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # The tensor-product region -/

/-- Window `w`'s block at point `t` of the tensor-product region, read off its array as the region finds it. -/
def tpBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's staging buffer holds its block at every point. -/
theorem tp_before_0 {c : Dev nD} (dat : Dat τ (Elt F) Unit ℕ (UR sig nD τ) ℕ cfg0 c) (hA : dat.A 0 = V c (Pipeline.arrRef spec0 0))
    (hafter : ∀ t, dat.after 0 t = tpBlk V c 0 t) (t : Fin cfg0.N) (d) : dat.before 0 t d = tpBlk V c 0 t :=
  (dat.before_in_eq_fetched 0 rfl (fun _ => rfl) (fun _ _ _ => rfl) (fun t => by rw [hafter]; unfold Dat.blockOf tpBlk; rw [hA]; try rfl) t d).trans
    (by unfold Dat.fetched Dat.blockOf tpBlk; rw [hA]; try rfl)
theorem tp_before_1 {c : Dev nD} (dat : Dat τ (Elt F) Unit ℕ (UR sig nD τ) ℕ cfg0 c) (hA : dat.A 1 = V c (Pipeline.arrRef spec0 1))
    (hafter : ∀ t, dat.after 1 t = tpBlk V c 1 t) (t : Fin cfg0.N) (d) : dat.before 1 t d = tpBlk V c 1 t :=
  (dat.before_in_eq_fetched 1 rfl (fun _ => rfl) (fun _ _ _ => rfl) (fun t => by rw [hafter]; unfold Dat.blockOf tpBlk; rw [hA]; try rfl) t d).trans
    (by unfold Dat.fetched Dat.blockOf tpBlk; rw [hA]; try rfl)

/-- The proof data of the tensor-product region: the operands' buffers keep their blocks, the output's buffer holds
    the product of the two blocks; the invariant is the untouched rest of the scoped memory and the generator
    register; nothing is owed. -/
def tpDat (c : Dev nD) : Dat τ (Elt F) Unit ℕ (UR sig nD τ) ℕ cfg0 c where
  A w := V c (Pipeline.arrRef spec0 w)
  after w t := match w with
    | ⟨0, _⟩ => tpBlk V c 0 t
    | ⟨1, _⟩ => tpBlk V c 1 t
    | ⟨2, _⟩ => k0_pay1 (tpBlk V c 0 t) (tpBlk V c 1 t)
  Φ _ := Pipeline.ΦA spec0 c
  q _ := fullShare
  owed _ := 0

theorem tp_A (c : Dev nD) (w : Fin cfg0.W) : (tpDat V c).A w = V c (Pipeline.arrRef spec0 w) := by dsimp only [tpDat]
theorem tp_after_0 (c : Dev nD) (t : Fin cfg0.N) : (tpDat V c).after 0 t = tpBlk V c 0 t := by dsimp only [tpDat]
theorem tp_after_1 (c : Dev nD) (t : Fin cfg0.N) : (tpDat V c).after 1 t = tpBlk V c 1 t := by dsimp only [tpDat]
theorem tp_after_2 (c : Dev nD) (t : Fin cfg0.N) : (tpDat V c).after 2 t = k0_pay1 (tpBlk V c 0 t) (tpBlk V c 1 t) := by dsimp only [tpDat]
theorem tp_bef_0 (c : Dev nD) (t : Fin cfg0.N) (d) : (tpDat V c).before 0 t d = tpBlk V c 0 t :=
  tp_before_0 V (tpDat V c) (tp_A V c 0) (tp_after_0 V c) t d
theorem tp_bef_1 (c : Dev nD) (t : Fin cfg0.N) (d) : (tpDat V c).before 1 t d = tpBlk V c 1 t :=
  tp_before_1 V (tpDat V c) (tp_A V c 1) (tp_after_1 V c) t d

/-- What the tensor-product body is called with at point `t`, -/
def tpPre (c : Dev nD) (t : Fin cfg0.N) : sProp 𝕄 :=
  iprop((tpDat V c).Φ t.castSucc ∗ (tpDat V c).owesAt () t.castSucc
    ∗ (∃ d, owns (c : Thread nD τ) (st0_0 t) fullShare ((tpDat V c).before 0 t d))
    ∗ (∃ d, owns (c : Thread nD τ) (st0_1 t) fullShare ((tpDat V c).before 1 t d))
    ∗ (∃ d, owns (c : Thread nD τ) (st0_2 t) fullShare ((tpDat V c).before 2 t d)))
/-- and what it returns. -/
def tpPost (c : Dev nD) (t : Fin cfg0.N) : sProp 𝕄 :=
  iprop((tpDat V c).Φ t.succ ∗ (tpDat V c).owesAt () t.succ
    ∗ owns (c : Thread nD τ) (st0_0 t) fullShare ((tpDat V c).after 0 t)
    ∗ owns (c : Thread nD τ) (st0_1 t) fullShare ((tpDat V c).after 1 t)
    ∗ owns (c : Thread nD τ) (st0_2 t) fullShare ((tpDat V c).after 2 t))

theorem tp_sound (c : Dev nD) (t : Fin cfg0.N) :
    tpPre V c t ⊢ wp frame (wpE (defs₀ (F := F)) Variants.none c none) Set.univ (bodyAt0 t) (fun _ => tpPost V c t) := by
  unfold tpPre tpPost bodyAt0
  simp only [tp_bef_0, tp_bef_1]
  rw [show (tpDat V c).Φ t.succ = (tpDat V c).Φ t.castSucc from rfl,
    show (tpDat V c).owesAt () t.succ = (tpDat V c).owesAt () t.castSucc from rfl,
    tp_after_0, tp_after_1, tp_after_2]
  iintro ⟨HΦ, Ho, ⟨%d0, H0⟩, ⟨%d1, H1⟩, ⟨%d2, H2⟩⟩
  iapply (tp_body c Set.univ _ _ _ _ _ _ _ (tpBlk V c 0 t) (tpBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem tp_obligation (c : Dev nD) : BodyObligation (tpDat (F := F) V c) (defs₀ (F := F)) Variants.none () Set.univ := fun t => by
  rw [bigSep_W0, bigSep_W0]
  exact tp_sound V c t

/-! # The linear region -/

/-- Window `w`'s block at point `t` of the linear region, read off its array as the region finds it. -/
def linBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem lin_before_0 {c : Dev nD} (dat : Dat τ (Elt F) Unit ℕ (UR sig nD τ) ℕ cfg1 c) (hA : dat.A 0 = V c (Pipeline.arrRef spec1 0))
    (hafter : ∀ t, dat.after 0 t = linBlk V c 0 t) (t : Fin cfg1.N) (d) : dat.before 0 t d = linBlk V c 0 t :=
  (dat.before_in_eq_fetched 0 rfl (fun _ => rfl) (fun _ _ _ => rfl) (fun t => by rw [hafter]; unfold Dat.blockOf linBlk; rw [hA]; try rfl) t d).trans
    (by unfold Dat.fetched Dat.blockOf linBlk; rw [hA]; try rfl)
theorem lin_before_1 {c : Dev nD} (dat : Dat τ (Elt F) Unit ℕ (UR sig nD τ) ℕ cfg1 c) (hA : dat.A 1 = V c (Pipeline.arrRef spec1 1))
    (hafter : ∀ t, dat.after 1 t = linBlk V c 1 t) (t : Fin cfg1.N) (d) : dat.before 1 t d = linBlk V c 1 t :=
  (dat.before_in_eq_fetched 1 rfl (fun _ => rfl) (fun _ _ _ => rfl) (fun t => by rw [hafter]; unfold Dat.blockOf linBlk; rw [hA]; try rfl) t d).trans
    (by unfold Dat.fetched Dat.blockOf linBlk; rw [hA]; try rfl)
/-- The bias window is fetched at the first K-step of an output block only; at the other steps its block index has not
    moved and the body left the block in place. -/
theorem lin_before_2 {c : Dev nD} (dat : Dat τ (Elt F) Unit ℕ (UR sig nD τ) ℕ cfg1 c) (hA : dat.A 2 = V c (Pipeline.arrRef spec1 2))
    (hafter : ∀ t, dat.after 2 t = linBlk V c 2 t) (t : Fin cfg1.N) (d) : dat.before 2 t d = linBlk V c 2 t :=
  (dat.before_in_eq_fetched 2 rfl (fun _ => rfl) (fun _ _ _ => rfl) (fun t => by rw [hafter]; unfold Dat.blockOf linBlk; rw [hA]; try rfl) t d).trans
    (by unfold Dat.fetched Dat.blockOf linBlk; rw [hA]; try rfl)

/-- What the accumulator holds before point `t`: after a point, that point's product added to what was there, which
    at the first K-step of an output block is zeros. (Before point 0 nothing is known; the value given is never used.) -/
def accBefore (c : Dev nD) : ℕ → Vec F S64x512 .f32
  | 0 => k1_pay1
  | t + 1 =>
    if h : t < cfg1.N then
      k1_pay2 (linBlk V c 0 ⟨t, h⟩) (linBlk V c 1 ⟨t, h⟩) (if t % 16 = 0 then k1_pay1 else accBefore c t)
    else accBefore c t

theorem accBefore_succ (c : Dev nD) (t : Fin cfg1.N) :
    accBefore V c (t.val + 1) = k1_pay2 (linBlk V c 0 t) (linBlk V c 1 t) (if t.val % 16 = 0 then k1_pay1 else accBefore V c t.val) := by
  rw [accBefore, dif_pos t.isLt]

/-- The kernel's accumulator: the scratch buffer, whole. -/
abbrev accRef : Memref sig .tc .vmem S64x512 .f32 := Memref.whole cc1_scratch0

/-- The scoped buffers the linear region neither stages nor uses (the tensor-product region's staging buffers), each at
    some contents. -/
def linIdle (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The linear region's invariant before point `t`: the accumulator at `accBefore` (at anything before a first K-step),
    the unused scoped buffers and the generator register. -/
def linInv (c : Dev nD) (t : ℕ) : sProp 𝕄 :=
  iprop((∃ d, owns (c : Thread nD τ) accRef fullShare d ∗ ⌜t % 16 ≠ 0 → d = accBefore V c t⌝) ∗ linIdle (F := F) c ∗ (∃ r, prngReg c r))

/-- The proof data of the linear region. -/
def linDat (c : Dev nD) : Dat τ (Elt F) Unit ℕ (UR sig nD τ) ℕ cfg1 c where
  A w := V c (Pipeline.arrRef spec1 w)
  after w t := match w with
    | ⟨0, _⟩ => linBlk V c 0 t
    | ⟨1, _⟩ => linBlk V c 1 t
    | ⟨2, _⟩ => linBlk V c 2 t
    | ⟨3, _⟩ => k1_pay3 (accBefore V c (t.val + 1)) (linBlk V c 2 t)
  Φ t := linInv V c t.val
  q _ := fullShare
  owed _ := 0

theorem lin_A (c : Dev nD) (w : Fin cfg1.W) : (linDat V c).A w = V c (Pipeline.arrRef spec1 w) := by dsimp only [linDat]
theorem lin_after_0 (c : Dev nD) (t : Fin cfg1.N) : (linDat V c).after 0 t = linBlk V c 0 t := by dsimp only [linDat]
theorem lin_after_1 (c : Dev nD) (t : Fin cfg1.N) : (linDat V c).after 1 t = linBlk V c 1 t := by dsimp only [linDat]
theorem lin_after_2 (c : Dev nD) (t : Fin cfg1.N) : (linDat V c).after 2 t = linBlk V c 2 t := by dsimp only [linDat]
theorem lin_after_3 (c : Dev nD) (t : Fin cfg1.N) : (linDat V c).after 3 t = k1_pay3 (accBefore V c (t.val + 1)) (linBlk V c 2 t) := by dsimp only [linDat]
theorem lin_bef_0 (c : Dev nD) (t : Fin cfg1.N) (d) : (linDat V c).before 0 t d = linBlk V c 0 t :=
  lin_before_0 V (linDat V c) (lin_A V c 0) (lin_after_0 V c) t d
theorem lin_bef_1 (c : Dev nD) (t : Fin cfg1.N) (d) : (linDat V c).before 1 t d = linBlk V c 1 t :=
  lin_before_1 V (linDat V c) (lin_A V c 1) (lin_after_1 V c) t d
theorem lin_bef_2 (c : Dev nD) (t : Fin cfg1.N) (d) : (linDat V c).before 2 t d = linBlk V c 2 t :=
  lin_before_2 V (linDat V c) (lin_A V c 2) (lin_after_2 V c) t d

/-- The two branch conditions over the grid, in closed form. -/
theorem first_iff : ∀ t : Fin cfg1.N, atFirstK (grid1.coords t) ↔ t.val % 16 = 0 :=
  (by decide +kernel : ∀ t : Fin grid1.N, atFirstK (grid1.coords t) ↔ t.val % 16 = 0)
theorem last_iff : ∀ t : Fin cfg1.N, atLastK (grid1.coords t) ↔ t.val % 16 = 15 :=
  (by decide +kernel : ∀ t : Fin grid1.N, atLastK (grid1.coords t) ↔ t.val % 16 = 15)
/-- The output window is idle, and not written back, away from the last K-step, and live at it. -/
theorem out_idle : ∀ t : Fin cfg1.N, t.val % 16 ≠ 15 → cfg1.idle 3 (grid1.coords t) = true :=
  (by decide +kernel : ∀ t : Fin grid1.N, t.val % 16 ≠ 15 → idle1 3 (grid1.coords t) = true)
theorem out_live : ∀ t : Fin cfg1.N, t.val % 16 = 15 → cfg1.idle 3 (grid1.coords t) = false :=
  (by decide +kernel : ∀ t : Fin grid1.N, t.val % 16 = 15 → idle1 3 (grid1.coords t) = false)
theorem out_noflush (t : Fin cfg1.N) (h : t.val % 16 ≠ 15) : (cfg1.win 3).flush t = false :=
  Bool.eq_false_iff.mpr fun hf => h ((flush1_3 t).mp hf)

/-- What the linear body is called with at point `t`, -/
def linPre (c : Dev nD) (t : Fin cfg1.N) : sProp 𝕄 :=
  iprop((linDat V c).Φ t.castSucc ∗ (linDat V c).owesAt () t.castSucc
    ∗ (∃ d, owns (c : Thread nD τ) (st1_0 t) fullShare ((linDat V c).before 0 t d))
    ∗ (∃ d, owns (c : Thread nD τ) (st1_1 t) fullShare ((linDat V c).before 1 t d))
    ∗ (∃ d, owns (c : Thread nD τ) (st1_2 t) fullShare ((linDat V c).before 2 t d))
    ∗ (∃ d, owns (c : Thread nD τ) (st1_3 t) fullShare ((linDat V c).before 3 t d)))
/-- and what it returns. -/
def linPost (c : Dev nD) (t : Fin cfg1.N) : sProp 𝕄 :=
  iprop((linDat V c).Φ t.succ ∗ (linDat V c).owesAt () t.succ
    ∗ (linDat V c).leavesExact 0 t ∗ (linDat V c).leavesExact 1 t ∗ (linDat V c).leavesExact 2 t ∗ (linDat V c).leavesExact 3 t)

set_option maxHeartbeats 2000000 in
theorem lin_sound (c : Dev nD) (t : Fin cfg1.N) :
    linPre V c t ⊢ wp frame (wpE (defs₀ (F := F)) Variants.none c none) Set.univ (bodyAt1 t) (fun _ => linPost V c t) := by
  unfold linPre linPost bodyAt1
  simp only [lin_bef_0, lin_bef_1, lin_bef_2]
  rw [show (linDat V c).owesAt () t.succ = (linDat V c).owesAt () t.castSucc from rfl,
    show (linDat V c).Φ t.succ = linInv V c (t.val + 1) from rfl,
    show (linDat V c).Φ t.castSucc = linInv V c t.val from rfl,
    show (linDat V c).leavesExact 0 t = owns (c : Thread nD τ) (st1_0 t) fullShare ((linDat V c).after 0 t) from rfl, lin_after_0,
    show (linDat V c).leavesExact 1 t = owns (c : Thread nD τ) (st1_1 t) fullShare ((linDat V c).after 1 t) from rfl, lin_after_1,
    show (linDat V c).leavesExact 2 t = owns (c : Thread nD τ) (st1_2 t) fullShare ((linDat V c).after 2 t) from rfl, lin_after_2]
  unfold linInv
  by_cases h0 : t.val % 16 = 0
  · have hl : t.val % 16 ≠ 15 := by omega
    rw [Dat.leavesExact_idle (linDat V c) 3 t (out_idle t hl) (out_noflush t hl)]
    iintro ⟨⟨⟨%ds, HS, -⟩, Hidle, Hg⟩, Ho, ⟨%d0, H0⟩, ⟨%d1, H1⟩, ⟨%d2, H2⟩, ⟨%d3, H3⟩⟩
    iapply (lin_first c Set.univ (grid1.coords t) _ _ _ _ _ _ _ _ _ _ ((first_iff t).mpr h0) (fun h => hl ((last_iff t).mp h)) (linBlk V c 0 t) (linBlk V c 1 t) _)
    isplitl [H0]; · iexact H0
    isplitl [H1]; · iexact H1
    isplitl [HS]; · iexists _; iexact HS
    iintro ⟨H0, H1, HS⟩
    isplitl [HS Hidle Hg]
    · isplitl [HS]
      · iexists _; isplitl [HS]; · iexact HS
        ipureintro; intro _; rw [accBefore_succ, if_pos h0]
      isplitl [Hidle]; · iexact Hidle
      iexact Hg
    isplitl [Ho]; · iexact Ho
    isplitl [H0]; · iexact H0
    isplitl [H1]; · iexact H1
    isplitl [H2]; · iexact H2
    iexists _; iexact H3
  · by_cases h15 : t.val % 16 = 15
    · rw [show (linDat V c).leavesExact 3 t = owns (c : Thread nD τ) (st1_3 t) fullShare ((linDat V c).after 3 t) from by
        unfold Dat.leavesExact; rw [out_live t h15], lin_after_3, accBefore_succ, if_neg h0]
      iintro ⟨⟨⟨%ds, HS, %hds⟩, Hidle, Hg⟩, Ho, ⟨%d0, H0⟩, ⟨%d1, H1⟩, ⟨%d2, H2⟩, ⟨%d3, H3⟩⟩
      obtain rfl := hds h0
      iapply (lin_last c Set.univ (grid1.coords t) _ _ _ _ _ _ _ _ _ _ (fun h => h0 ((first_iff t).mp h)) ((last_iff t).mpr h15) (linBlk V c 0 t) (linBlk V c 1 t) (linBlk V c 2 t) (accBefore V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hidle Hg]
      · isplitl [HS]
        · iexists _; isplitl [HS]; · iexact HS
          ipureintro; intro _; rfl
        isplitl [Hidle]; · iexact Hidle
        iexact Hg
      isplitl [Ho]; · iexact Ho
      isplitl [H0]; · iexact H0
      isplitl [H1]; · iexact H1
      isplitl [H2]; · iexact H2
      iexact H3
    · rw [Dat.leavesExact_idle (linDat V c) 3 t (out_idle t h15) (out_noflush t h15)]
      iintro ⟨⟨⟨%ds, HS, %hds⟩, Hidle, Hg⟩, Ho, ⟨%d0, H0⟩, ⟨%d1, H1⟩, ⟨%d2, H2⟩, ⟨%d3, H3⟩⟩
      obtain rfl := hds h0
      iapply (lin_mid c Set.univ (grid1.coords t) _ _ _ _ _ _ _ _ _ _ (fun h => h0 ((first_iff t).mp h)) (fun h => h15 ((last_iff t).mp h)) (linBlk V c 0 t) (linBlk V c 1 t) (accBefore V c t.val) _)
      isplitl [H0]; · iexact H0
      isplitl [H1]; · iexact H1
      isplitl [HS]; · iexact HS
      iintro ⟨H0, H1, HS⟩
      isplitl [HS Hidle Hg]
      · isplitl [HS]
        · iexists _; isplitl [HS]; · iexact HS
          ipureintro; intro _; rw [accBefore_succ, if_neg h0]
        isplitl [Hidle]; · iexact Hidle
        iexact Hg
      isplitl [Ho]; · iexact Ho
      isplitl [H0]; · iexact H0
      isplitl [H1]; · iexact H1
      isplitl [H2]; · iexact H2
      iexists _; iexact H3

theorem lin_obligation (c : Dev nD) : BodyObligation (linDat (F := F) V c) (defs₀ (F := F)) Variants.none () Set.univ := fun t => by
  rw [bigSep_W1, bigSep_W1]
  exact lin_sound V c t

end Regions

variable (m : (ℓ : Loc nD τ sig) → Buf (Elt F) ℓ) (ρ : Dev nD → PrngReg)

/-! # The run: @main's four segments from the launch to the return

## The buffer contents at each segment boundary -/

/-- Core `c`'s buffers at launch; -/
abbrev W0 : Dev nD → Valuation τ sig (Elt F) := fun c b => m (c, b)
/-- after the first host stretch (the two lookups): what the tensor-product region is entered with; -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after the tensor-product region: its arrays at what its write-backs leave, every other buffer as entered; -/
def W2 (c : Dev nD) : Valuation τ sig (Elt F) :=
  Pipeline.withArrays spec0 c (W1 m c) fun w => (tpDat (V1 m) c).arrAt w cfg0.N
theorem W2_arr (c : Dev nD) (w : Fin cfg0.W) :
    W2 m c (Proc.devRef .tc (Pipeline.arrRef spec0 w)) = (tpDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem tp_final (c : Dev nD) (w : Fin cfg0.W) : (tpDat (V1 m) c).arrAt w cfg0.N = V2 m c (Pipeline.arrRef spec0 w) :=
  (W2_arr m c w).symm
theorem tp_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the two reshapes: what the linear region is entered with; -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- and after the linear region. -/
def W4 (c : Dev nD) : Valuation τ sig (Elt F) :=
  Pipeline.withArrays spec1 c (W3 m c) fun w => (linDat (V3 m) c).arrAt w cfg1.N
theorem W4_arr (c : Dev nD) (w : Fin cfg1.W) :
    W4 m c (Proc.devRef .tc (Pipeline.arrRef spec1 w)) = (linDat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem lin_final (c : Dev nD) (w : Fin cfg1.W) : (linDat (V3 m) c).arrAt w cfg1.N = V4 m c (Pipeline.arrRef spec1 w) :=
  (W4_arr m c w).symm
theorem lin_rest (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => tpDat (V1 m) c
  | ⟨1, _⟩ => fun c => linDat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The tensor-product region: entered with every unscoped buffer at `W1`, left at `W2`. Its arrays are split out of
    the unscoped buffers and put back at their final contents; the generator register goes into the invariant and
    comes back; nothing is owed. -/
def tpReg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (tp_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (tp_final m c) (tp_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The linear region: entered with every unscoped buffer at `W3`, left at `W4`. The scratch buffer and the other
    unused scoped buffers go into the invariant (the accumulator at anything, before the first point) and come back at
    the end (the accumulator's named contents forgotten). -/
def linReg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (lin_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = linInv (V3 m) c 0 from rfl]
    change iprop(_ ∗ _ ∗ Pipeline.scopedRest spec1 c) ⊢ _
    rw [scopedRest1_eq]; unfold linInv linIdle
    iintro ⟨Hp, -, ⟨H1, H2, H3, H4, H5, H6, ⟨%f, HS⟩⟩⟩
    isplitl [HS]
    · iexists f; isplitl [HS]
      · rw [owns_whole]; iexact HS
      ipureintro; intro h; exact absurd rfl h
    isplitl [H1 H2 H3 H4 H5 H6]
    · isplitl [H1]; · iexact H1
      isplitl [H2]; · iexact H2
      isplitl [H3]; · iexact H3
      isplitl [H4]; · iexact H4
      isplitl [H5]; · iexact H5
      iexact H6
    iexact Hp
  hout c := by
    rw [Pipeline.ownSems0_none, show (pdats m 1 c).Φ (Fin.last _) = linInv (V3 m) c (Fin.last cfg1.N).val from rfl]
    change _ ⊢ iprop(_ ∗ _ ∗ Pipeline.scopedRest spec1 c)
    rw [scopedRest1_eq]; unfold linInv linIdle
    iintro ⟨⟨%d, HS, -⟩, ⟨H1, H2, H3, H4, H5, H6⟩, Hp⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [H6]; · iexact H6
    iexists d; rw [owns_whole]; exact .rfl
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (lin_final m c) (lin_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (tpReg m),
    .host (hseg hostOps1 hostOps1_sub hostOps1_fresh (W2 m)),
    .region (linReg m) ]
theorem main_run (c : Dev nD) : main (F := F) c = Pipeline.Seg.run (segs m) := (main_chain c).trans (by chain_rfl)

set_option backward.isDefEq.respectTransparency.types false in
/-- At the compiled mesh, from any memory with zero counters: every weakly fair execution of @main on the TensorCores
    terminates, nothing faulting, and in every final state each buffer outside the kernels' scoped memory holds the
    last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.IdealFrame.lean ====
/-
  The frame claim read off the run: every argument array ends holding its launch contents, because no host operation
  writes an argument, the tensor-product region's arrays are two lookup results and its own output, and of the linear
  region's arrays the only argument is the weight matrix, an input window's array, which a pipeline never writes.
  The same run names what the result buffer holds at the end.
-/
import proofs.«181320_j70016556860030_2_alg».proof.Proof.IdealRegions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- `main_arg0` is no window's array and no host operation writes it: it reaches the end as launched. -/
theorem W4_arg0 (c : Dev nD) : W4 m c (Proc.devRef .tc main_arg0) = m ((c : Thread nD τ).loc main_arg0) :=
  (W4_of_ne m c main_arg0 (by decide)).trans <|
  (StableHlo.after_of_writes_sub hostOps1 _ hostOps1_writes (by decide)).trans <|
  (W2_of_ne m c main_arg0 (by decide)).trans <|
  (StableHlo.after_of_writes_sub hostOps0 _ hostOps0_writes (by decide)).trans rfl
/-- `main_arg1` is no window's array and no host operation writes it: it reaches the end as launched. -/
theorem W4_arg1 (c : Dev nD) : W4 m c (Proc.devRef .tc main_arg1) = m ((c : Thread nD τ).loc main_arg1) :=
  (W4_of_ne m c main_arg1 (by decide)).trans <|
  (StableHlo.after_of_writes_sub hostOps1 _ hostOps1_writes (by decide)).trans <|
  (W2_of_ne m c main_arg1 (by decide)).trans <|
  (StableHlo.after_of_writes_sub hostOps0 _ hostOps0_writes (by decide)).trans rfl
/-- `main_arg2` is no window's array and no host operation writes it: it reaches the end as launched. -/
theorem W4_arg2 (c : Dev nD) : W4 m c (Proc.devRef .tc main_arg2) = m ((c : Thread nD τ).loc main_arg2) :=
  (W4_of_ne m c main_arg2 (by decide)).trans <|
  (StableHlo.after_of_writes_sub hostOps1 _ hostOps1_writes (by decide)).trans <|
  (W2_of_ne m c main_arg2 (by decide)).trans <|
  (StableHlo.after_of_writes_sub hostOps0 _ hostOps0_writes (by decide)).trans rfl
/-- `main_arg3` is no window's array and no host operation writes it: it reaches the end as launched. -/
theorem W4_arg3 (c : Dev nD) : W4 m c (Proc.devRef .tc main_arg3) = m ((c : Thread nD τ).loc main_arg3) :=
  (W4_of_ne m c main_arg3 (by decide)).trans <|
  (StableHlo.after_of_writes_sub hostOps1 _ hostOps1_writes (by decide)).trans <|
  (W2_of_ne m c main_arg3 (by decide)).trans <|
  (StableHlo.after_of_writes_sub hostOps0 _ hostOps0_writes (by decide)).trans rfl
/-- `main_arg5` is no window's array and no host operation writes it: it reaches the end as launched. -/
theorem W4_arg5 (c : Dev nD) : W4 m c (Proc.devRef .tc main_arg5) = m ((c : Thread nD τ).loc main_arg5) :=
  (W4_of_ne m c main_arg5 (by decide)).trans <|
  (StableHlo.after_of_writes_sub hostOps1 _ hostOps1_writes (by decide)).trans <|
  (W2_of_ne m c main_arg5 (by decide)).trans <|
  (StableHlo.after_of_writes_sub hostOps0 _ hostOps0_writes (by decide)).trans rfl

/-- The weight matrix is the linear region's second input window's array: the region leaves it as entered, and nothing
    before the region writes it. -/
theorem W4_arg4 (c : Dev nD) : W4 m c (Proc.devRef .tc main_arg4) = m ((c : Thread nD τ).loc main_arg4) :=
  (W4_arr m c 1).trans <| ((linDat (V3 m) c).arrAt_in 1 rfl _).trans <| (lin_A (V3 m) c 1).trans <|
  (StableHlo.after_of_writes_sub hostOps1 _ hostOps1_writes (by decide)).trans <|
  (W2_of_ne m c main_arg4 (by decide)).trans <|
  (StableHlo.after_of_writes_sub hostOps0 _ hostOps0_writes (by decide)).trans rfl

/-- The result buffer is the linear region's output window's array: it ends at what that region's write-backs leave. -/
theorem W4_out (c : Dev nD) : W4 m c (Proc.devRef .tc main_v19) = (linDat (V3 m) c).arrAt 3 cfg1.N := W4_arr m c 3

/-- The frame: every weakly fair execution terminates, nothing faulting, every argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_arg0 m c),
      (h c _ (mem_uc main_arg1 (by decide))).trans (W4_arg1 m c),
      (h c _ (mem_uc main_arg2 (by decide))).trans (W4_arg2 m c),
      (h c _ (mem_uc main_arg3 (by decide))).trans (W4_arg3 m c),
      (h c _ (mem_uc main_arg4 (by decide))).trans (W4_arg4 m c),
      (h c _ (mem_uc main_arg5 (by decide))).trans (W4_arg5 m c)⟩) (run m ρ)

/-- The same run with the result named. -/
theorem run_out : θ_run defs (onTc (τ := τ) (main (F := F))) ⟨m, fun _ => 0, ρ⟩ (fun r => ∀ c : Dev nD,
      r.2.mem ((c.tc : Thread nD τ).loc main_v19) = (linDat (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v19 (by decide))).trans (W4_out m c),
      (h c _ (mem_uc main_arg0 (by decide))).trans (W4_arg0 m c),
      (h c _ (mem_uc main_arg1 (by decide))).trans (W4_arg1 m c),
      (h c _ (mem_uc main_arg2 (by decide))).trans (W4_arg2 m c),
      (h c _ (mem_uc main_arg3 (by decide))).trans (W4_arg3 m c),
      (h c _ (mem_uc main_arg4 (by decide))).trans (W4_arg4 m c),
      (h c _ (mem_uc main_arg5 (by decide))).trans (W4_arg5 m c)⟩) (run m ρ)

end Cert.KernelIdeal.Hand

end
-- ==== Proof.RefEntry.lean ====
/-
  The reference's result read at one entry on the extended reals.

  The reference gathers one row of the filler table and one row of the role table per (batch, position) pair, forms
  for each batch the 256 × 256 matrix of products ∑ s, f (m, s, d) · r (m, s, e) over the 128 positions, lays each
  matrix out as one row of length 65536 (entry k of the row is the matrix entry (k / 256, k % 256)), multiplies the
  64 × 65536 array by the transposed weights and adds the bias to every row:

    out (m, n) = ∑ k, (∑ s, f (m, s, k / 256) · r (m, s, k % 256)) · W (n, k)  +  b n.

  The two gathered arrays are kept as named terms of the argument arrays and never opened: which table row an entry
  reads depends on the index arrays' values, and both programs compute those rows by the same operations.
-/
import proofs.«181320_j70016556860030_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Proof.Bridge

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The gathered filler rows: row `idx0 (m, s)` of the filler table (a negative index counted from the end, as the
    program's select does), for every batch `m` and position `s`. -/
def fillerRows (x0 : (⟨S64x128, .i32⟩ : BufTy).Contents (Elt Ideal)) (x2 : (⟨S50257x256, .f32⟩ : BufTy).Contents (Elt Ideal)) :
    (⟨S64x128x256, .f32⟩ : BufTy).Contents (Elt Ideal) :=
  Host.gather gather_S50257x256_S64x128x1_S64x128x256_2_0_n_n_0_2_1256 x2
    (broadcastInDim S64x128x1 ![0, 1] bcast_S64x128_S64x128x1_0_1
      (select (cmpi .slt x0 (broadcastInDim S64x128 ![] bcast_S_S64x128 (constantI S_ 32 0#32)))
        (addi x0 (broadcastInDim S64x128 ![] bcast_S_S64x128 (constantI S_ 32 50257#32))) x0))

/-- The gathered role rows: row `idx1 (m, s)` of the role table, likewise. -/
def roleRows (x1 : (⟨S64x128, .i32⟩ : BufTy).Contents (Elt Ideal)) (x3 : (⟨S512x256, .f32⟩ : BufTy).Contents (Elt Ideal)) :
    (⟨S64x128x256, .f32⟩ : BufTy).Contents (Elt Ideal) :=
  Host.gather gather_S512x256_S64x128x1_S64x128x256_2_0_n_n_0_2_1256 x3
    (broadcastInDim S64x128x1 ![0, 1] bcast_S64x128_S64x128x1_0_1
      (select (cmpi .slt x1 (broadcastInDim S64x128 ![] bcast_S_S64x128 (constantI S_ 32 0#32)))
        (addi x1 (broadcastInDim S64x128 ![] bcast_S_S64x128 (constantI S_ 32 512#32))) x1))

/-- The filler rows are the reference's first gather stage. -/
theorem fillerRows_eq (x0 : (⟨S64x128, .i32⟩ : BufTy).Contents (Elt Ideal)) (x2 : (⟨S50257x256, .f32⟩ : BufTy).Contents (Elt Ideal)) :
    val_main_v6 (F := Ideal) x0 x2 = fillerRows x0 x2 := rfl

/-- The role rows are the reference's second gather stage. -/
theorem roleRows_eq (x1 : (⟨S64x128, .i32⟩ : BufTy).Contents (Elt Ideal)) (x3 : (⟨S512x256, .f32⟩ : BufTy).Contents (Elt Ideal)) :
    val_main_v13 (F := Ideal) x1 x3 = roleRows x1 x3 := rfl

/-- The quotient of a position below 65536 by 256 is below 256. -/
theorem ref_div256_lt (k : Fin 65536) : k.val / 256 < 256 := by have := k.isLt; omega

/-- The remainder of a position by 256 is below 256. -/
theorem ref_mod256_lt (k : Fin 65536) : k.val % 256 < 256 := Nat.mod_lt _ (by decide)

/-- Where the product matrix's entry under position `k` of row `m` reads the filler rows: (m, s, k / 256). -/
theorem ref_filler_idx (m : Fin 64) (n : Fin 1024) (k : Fin 65536) (s : Fin 128) :
    lidx_main_v14 (idx_main_v15 (lidx_main_v17 (ix2 m n) k)) s = ix3 m s ⟨k.val / 256, ref_div256_lt k⟩ :=
  funext fun a => Fin.ext (by
    have hm := m.isLt
    have hk := k.isLt
    match a with
    | ⟨0, _⟩ => show (m.val * 65536 + k.val) / 65536 = m.val; omega
    | ⟨1, _⟩ => rfl
    | ⟨2, _⟩ => show (m.val * 65536 + k.val) / 256 % 256 = k.val / 256; omega)

/-- Where it reads the role rows: (m, s, k % 256). -/
theorem ref_role_idx (m : Fin 64) (n : Fin 1024) (k : Fin 65536) (s : Fin 128) :
    ridx_main_v14 (idx_main_v15 (lidx_main_v17 (ix2 m n) k)) s = ix3 m s ⟨k.val % 256, ref_mod256_lt k⟩ :=
  funext fun a => Fin.ext (by
    have hm := m.isLt
    have hk := k.isLt
    match a with
    | ⟨0, _⟩ => show (m.val * 65536 + k.val) / 65536 = m.val; omega
    | ⟨1, _⟩ => rfl
    | ⟨2, _⟩ => show (m.val * 65536 + k.val) % 256 = k.val % 256; omega)

/-- The transposed weights under position `k` for output column `n`: the weight (n, k). -/
theorem ref_weight_idx (m : Fin 64) (n : Fin 1024) (k : Fin 65536) :
    idx_main_v16 (ridx_main_v17 (ix2 m n) k) = ix2 n k :=
  funext fun a => Fin.ext (by
    match a with
    | ⟨0, _⟩ => rfl
    | ⟨1, _⟩ => rfl)

/-- The broadcast bias at (m, n): the bias entry n. -/
theorem ref_bias_idx (m : Fin 64) (n : Fin 1024) : idx_main_v18 (idx_main_v19 (ix2 m n)) = ix1 n :=
  funext fun a => Fin.ext (by
    match a with
    | ⟨0, _⟩ => rfl)

/-- THE REFERENCE AT AN ENTRY. -/
theorem reference_apply (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal))
    (m : Fin 64) (n : Fin 1024) :
    val_main_v20 (F := Ideal) x0 x1 x2 x3 x4 x5 (ix2 m n)
      = (∑ k : Fin 65536,
          (∑ s : Fin 128, fillerRows x0 x2 (ix3 m s ⟨k.val / 256, ref_div256_lt k⟩)
              * roleRows x1 x3 (ix3 m s ⟨k.val % 256, ref_mod256_lt k⟩))
            * x4 (ix2 n k))
        + x5 (ix1 n) := by
  rw [val_main_v20_apply, val_main_v17_apply, val_main_v19_apply, val_main_v18_apply, ref_bias_idx]
  show (∑ k : Fin 65536, _) + x5 (ix1 n) = _
  refine congrArg (· + x5 (ix1 n)) (Finset.sum_congr rfl fun k _ => ?_)
  rw [val_main_v15_apply, val_main_v14_apply, val_main_v16_apply, ref_weight_idx]
  refine congrArg (· * x4 (ix2 n k)) (Finset.sum_congr rfl fun s _ => ?_)
  rw [ref_filler_idx, ref_role_idx, fillerRows_eq, roleRows_eq]

end Cert.Proof.Bridge

end
-- ==== Proof.HostRows.lean ====
/-
  The kernel's host stretch computes the same gathered rows as the reference.

  Before the first region the kernel's program gathers the filler rows and the role rows by the very operations the
  reference uses — the same comparison with 0, the same wrap of a negative index by the table's length, the same gather
  dimension numbers — and then narrows them to a 16-bit float format, which is the identity on the extended reals.  The
  two programs print their own copies of the shapes and of the gather records; the copies have the same fields, so the
  terms are equal by unfolding.
-/
import proofs.«181320_j70016556860030_2_alg».proof.Proof.Gen.KernelIdeal
import proofs.«181320_j70016556860030_2_alg».proof.Proof.RefEntry

noncomputable section

namespace Cert.Proof.Bridge

open Idealize.ShloMosaic Idealize.ShloMosaic.ValueIdx Idealize.ShloMosaic.TcCoe Idealize.SL.Sem Idealize.ShloMosaic.StableHlo

section
open Cert.KernelIdeal Cert.KernelIdeal.Gen

/-- The kernel program's gathered filler rows, as its host operations compute them (before the format change). -/
def kernelFillerRows (x0 : (⟨S64x128, .i32⟩ : BufTy).Contents (Elt Ideal)) (x2 : (⟨S50257x256, .f32⟩ : BufTy).Contents (Elt Ideal)) :
    (⟨S64x128x256, .f32⟩ : BufTy).Contents (Elt Ideal) :=
  Host.gather gather_S50257x256_S64x128x1_S64x128x256_2_0_n_n_0_2_1256 x2
    (broadcastInDim S64x128x1 ![0, 1] bcast_S64x128_S64x128x1_0_1
      (select (cmpi .slt x0 (broadcastInDim S64x128 ![] bcast_S_S64x128 (constantI S_ 32 0#32)))
        (addi x0 (broadcastInDim S64x128 ![] bcast_S_S64x128 (constantI S_ 32 50257#32))) x0))

/-- The kernel program's gathered role rows, likewise. -/
def kernelRoleRows (x1 : (⟨S64x128, .i32⟩ : BufTy).Contents (Elt Ideal)) (x3 : (⟨S512x256, .f32⟩ : BufTy).Contents (Elt Ideal)) :
    (⟨S64x128x256, .f32⟩ : BufTy).Contents (Elt Ideal) :=
  Host.gather gather_S512x256_S64x128x1_S64x128x256_2_0_n_n_0_2_1256 x3
    (broadcastInDim S64x128x1 ![0, 1] bcast_S64x128_S64x128x1_0_1
      (select (cmpi .slt x1 (broadcastInDim S64x128 ![] bcast_S_S64x128 (constantI S_ 32 0#32)))
        (addi x1 (broadcastInDim S64x128 ![] bcast_S_S64x128 (constantI S_ 32 512#32))) x1))

end

/-- The two programs' filler rows are the same array. -/
theorem kernelFillerRows_eq (x0 : (⟨Cert.KernelIdeal.S64x128, .i32⟩ : BufTy).Contents (Elt Ideal))
    (x2 : (⟨Cert.KernelIdeal.S50257x256, .f32⟩ : BufTy).Contents (Elt Ideal)) :
    kernelFillerRows x0 x2 = fillerRows x0 x2 := rfl

/-- The two programs' role rows are the same array. -/
theorem kernelRoleRows_eq (x1 : (⟨Cert.KernelIdeal.S64x128, .i32⟩ : BufTy).Contents (Elt Ideal))
    (x3 : (⟨Cert.KernelIdeal.S512x256, .f32⟩ : BufTy).Contents (Elt Ideal)) :
    kernelRoleRows x1 x3 = roleRows x1 x3 := rfl

/-- The first region's left operand at an entry: the narrowed filler rows are the reference's filler rows. -/
theorem kernel_filler_apply (x0 : (⟨Cert.KernelIdeal.S64x128, .i32⟩ : BufTy).Contents (Elt Ideal))
    (x2 : (⟨Cert.KernelIdeal.S50257x256, .f32⟩ : BufTy).Contents (Elt Ideal)) (i : Cert.KernelIdeal.S64x128x256.Idx) :
    (truncf .bf16 (kernelFillerRows x0 x2) Cert.KernelIdeal.Gen.bitsLt_bf16_f32 : FVec Ideal Cert.KernelIdeal.S64x128x256 .bf16) i
      = fillerRows x0 x2 i := rfl

/-- The first region's right operand at an entry: the narrowed role rows are the reference's role rows. -/
theorem kernel_role_apply (x1 : (⟨Cert.KernelIdeal.S64x128, .i32⟩ : BufTy).Contents (Elt Ideal))
    (x3 : (⟨Cert.KernelIdeal.S512x256, .f32⟩ : BufTy).Contents (Elt Ideal)) (i : Cert.KernelIdeal.S64x128x256.Idx) :
    (truncf .bf16 (kernelRoleRows x1 x3) Cert.KernelIdeal.Gen.bitsLt_bf16_f32 : FVec Ideal Cert.KernelIdeal.S64x128x256 .bf16) i
      = roleRows x1 x3 i := rfl

end Cert.Proof.Bridge

end
-- ==== Proof.HostReshape.lean ====
/-
  The two host reshapes before the second region, read at an index.

  A reshape keeps the row-major position.  The 64 × 256 × 256 array of products viewed as 64 × 65536 has, at (m, k),
  the entry (m, k / 256, k % 256): position m · 65536 + k is (m · 256 + k / 256) · 256 + k % 256.  The bias vector of
  length 1024 viewed as one row 1 × 1024 has, at (0, n), the entry n.
-/
import proofs.«181320_j70016556860030_2_alg».proof.Proof.Gen.KernelIdeal
import Idealize.ShloMosaic.Lib.Pipeline.Value
import Idealize.ShloMosaic.Lib.ValueIdx

noncomputable section

namespace Cert.Proof.Bridge

open Cert.KernelIdeal Cert.KernelIdeal.Gen Idealize.ShloMosaic Idealize.ShloMosaic.ValueIdx

/-- The quotient of a position below 65536 by 256 is below 256. -/
theorem div256_lt (k : Fin 65536) : k.val / 256 < 256 := by have := k.isLt; omega

/-- The remainder of a position by 256 is below 256. -/
theorem mod256_lt (k : Fin 65536) : k.val % 256 < 256 := Nat.mod_lt _ (by decide)

/-- The array of products viewed as 64 × 65536: entry (m, k) is entry (m, k / 256, k % 256). -/
theorem reshape_products_apply {α : Type} (x : S64x256x256.Idx → α) (m : Fin 64) (k : Fin 65536) :
    shapeCast S64x65536 x shapeCasts_S64x256x256_S64x65536 (ix2 m k)
      = x (ix3 m ⟨k.val / 256, div256_lt k⟩ ⟨k.val % 256, mod256_lt k⟩) := by
  refine shapeCast_apply x shapeCasts_S64x256x256_S64x65536 (ix2 m k) _ ?_
  rw [Shape.rowMajor_val_three, Shape.rowMajor_val_two]
  show (m.val * 256 + k.val / 256) * 256 + k.val % 256 = m.val * 65536 + k.val
  omega

/-- The bias vector viewed as one row: entry (0, n) is entry n. -/
theorem reshape_bias_apply {α : Type} (x : S1024.Idx → α) (n : Fin 1024) :
    shapeCast S1x1024 x shapeCasts_S1024_S1x1024 (ix2 0 n) = x (ix1 n) := by
  refine shapeCast_apply x shapeCasts_S1024_S1x1024 (ix2 0 n) _ ?_
  rw [Shape.rowMajor_val_one, Shape.rowMajor_val_two]
  show n.val = 0 * 1024 + n.val
  omega

end Cert.Proof.Bridge

end
-- ==== Proof.IdealEntry.lean ====
/-
  What the two regions are entered with, at the ideal instance, as terms of the argument arrays.

  The first host stretch leaves the gathered filler rows and role rows, narrowed to the 16-bit format, in the
  tensor-product region's two operand arrays. Between the regions the product array [64, 256, 256] is reshaped to
  [64, 65536] and the bias vector [1024] to the row [1, 1024]; the weight matrix reaches the linear region as launched.
-/
import proofs.«181320_j70016556860030_2_alg».proof.Proof.IdealRegions
import proofs.«181320_j70016556860030_2_alg».proof.Proof.HostRows
import proofs.«181320_j70016556860030_2_alg».proof.Proof.HostReshape
import Idealize.ShloMosaic.Lib.StableHlo.Run

set_option maxRecDepth 16384

noncomputable section

namespace Cert.KernelIdeal.Hand

open Cert.KernelIdeal Cert.KernelIdeal.Gen Cert.Proof.Bridge
open Idealize.ShloMosaic Idealize.ShloMosaic.TcCoe Idealize.SL.Sem

variable (m : (ℓ : Loc nD τ sig) → Buf (Elt Ideal) ℓ)

theorem entry_filler (c : Dev nD) :
    (V1 m c main_v7 : S64x128x256.Idx → EReal)
      = (truncf .bf16 (kernelFillerRows (m ((c : Thread nD τ).loc main_arg0)) (m ((c : Thread nD τ).loc main_arg2))) bitsLt_bf16_f32 : FVec Ideal S64x128x256 .bf16) := by
  dsimp only [V1, W1, W0, hostOps0]; after_results; rfl

theorem entry_role (c : Dev nD) :
    (V1 m c main_v15 : S64x128x256.Idx → EReal)
      = (truncf .bf16 (kernelRoleRows (m ((c : Thread nD τ).loc main_arg1)) (m ((c : Thread nD τ).loc main_arg3))) bitsLt_bf16_f32 : FVec Ideal S64x128x256 .bf16) := by
  dsimp only [V1, W1, W0, hostOps0]; after_results; rfl

theorem entry_products (c : Dev nD) :
    (V3 m c main_v17 : S64x65536.Idx → EReal)
      = shapeCast S64x65536 ((tpDat (V1 m) c).arrAt 2 cfg0.N : S64x256x256.Idx → EReal) shapeCasts_S64x256x256_S64x65536 := by
  rw [← W2_arr m c 2]
  dsimp only [V3, W3, hostOps1]; after_results; rfl

theorem entry_bias (c : Dev nD) :
    (V3 m c main_v18 : S1x1024.Idx → EReal)
      = shapeCast S1x1024 (m ((c : Thread nD τ).loc main_arg5) : S1024.Idx → EReal) shapeCasts_S1024_S1x1024 := by
  have e : W2 m c (Proc.devRef .tc main_arg5) = m ((c : Thread nD τ).loc main_arg5) :=
    (W2_of_ne m c main_arg5 (by decide)).trans ((StableHlo.after_of_writes_sub hostOps0 _ hostOps0_writes (by decide)).trans rfl)
  rw [← e]
  dsimp only [V3, W3, hostOps1]; after_results; rfl

theorem entry_weights (c : Dev nD) : V3 m c main_arg4 = m ((c : Thread nD τ).loc main_arg4) :=
  (StableHlo.after_of_writes_sub hostOps1 _ hostOps1_writes (by decide)).trans <|
  (W2_of_ne m c main_arg4 (by decide)).trans <|
  (StableHlo.after_of_writes_sub hostOps0 _ hostOps0_writes (by decide)).trans rfl

end Cert.KernelIdeal.Hand

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.PayTp.lean ====
/-
  The first region's payload read at one entry of its 32 × 256 × 256 block on the extended reals.

  For each of the 32 batches of a block the region forms the 256 × 256 matrix of products of the two operands'
  columns: entry (b, d, e) is ∑ s, x0 (b, s, d) · x1 (b, s, e), the sum running over the 128 rows both operands share.
  The product is taken into the zero accumulator, so nothing else is added; the changes of float format are the identity
  on the extended reals and the reshapes to the same shape are the identity.
-/
import proofs.«181320_j70016556860030_2_alg».proof.Proof.Gen.KernelIdeal.Skeleton
import proofs.«181320_j70016556860030_2_alg».proof.Proof.LibContractSum
import Idealize.ShloMosaic.Lib.Pipeline.Value
import Idealize.ShloMosaic.Lib.ValueIdx
import Idealize.ShloMosaic.PureOps.Ideal.Laws

noncomputable section

namespace Cert.Proof.Bridge

open Cert.KernelIdeal Cert.KernelIdeal.Gen Idealize.ShloMosaic Idealize.ShloMosaic.ValueIdx

/-- The left operand is read in the output entry's batch … -/
theorem tp_lhs_0 (i : S32x256x256.Idx) (c : dot_S32x128x256_S32x128x256_S32x256x256_1_1_2_2_0_0.contr.Idx) :
    (dot_S32x128x256_S32x128x256_S32x256x256_1_1_2_2_0_0.lhsIdx i c 0).val = (i 0).val := by
  unfold DotDims.lhsIdx
  rw [dif_pos (show (0 : Fin S32x128x256.rank) ∈ dot_S32x128x256_S32x128x256_S32x256x256_1_1_2_2_0_0.lhsBatch by decide)]
  rfl

/-- … and at the column the output entry's middle coordinate names. -/
theorem tp_lhs_2 (i : S32x256x256.Idx) (c : dot_S32x128x256_S32x128x256_S32x256x256_1_1_2_2_0_0.contr.Idx) :
    (dot_S32x128x256_S32x128x256_S32x256x256_1_1_2_2_0_0.lhsIdx i c 2).val = (i 1).val := by
  unfold DotDims.lhsIdx
  rw [dif_neg (show ¬(2 : Fin S32x128x256.rank) ∈ dot_S32x128x256_S32x128x256_S32x256x256_1_1_2_2_0_0.lhsBatch by decide),
    dif_pos (show (2 : Fin S32x128x256.rank) ∈ dot_S32x128x256_S32x128x256_S32x256x256_1_1_2_2_0_0.lhsNonContracting by decide)]
  rfl

/-- The right operand is read in the output entry's batch … -/
theorem tp_rhs_0 (i : S32x256x256.Idx) (c : dot_S32x128x256_S32x128x256_S32x256x256_1_1_2_2_0_0.contr.Idx) :
    (dot_S32x128x256_S32x128x256_S32x256x256_1_1_2_2_0_0.rhsIdx i c 0).val = (i 0).val := by
  unfold DotDims.rhsIdx
  rw [dif_pos (show (0 : Fin S32x128x256.rank) ∈ dot_S32x128x256_S32x128x256_S32x256x256_1_1_2_2_0_0.rhsBatch by decide)]
  rfl

/-- … and at the column the output entry's last coordinate names. -/
theorem tp_rhs_2 (i : S32x256x256.Idx) (c : dot_S32x128x256_S32x128x256_S32x256x256_1_1_2_2_0_0.contr.Idx) :
    (dot_S32x128x256_S32x128x256_S32x256x256_1_1_2_2_0_0.rhsIdx i c 2).val = (i 2).val := by
  unfold DotDims.rhsIdx
  rw [dif_neg (show ¬(2 : Fin S32x128x256.rank) ∈ dot_S32x128x256_S32x128x256_S32x256x256_1_1_2_2_0_0.rhsBatch by decide),
    dif_pos (show (2 : Fin S32x128x256.rank) ∈ dot_S32x128x256_S32x128x256_S32x256x256_1_1_2_2_0_0.rhsNonContracting by decide)]
  rfl

/-- The contraction's left operand index at output entry (b, d, e) and contraction coordinate `s`: (b, s, d). -/
theorem tp_lhsIdx (b : Fin 32) (d e : Fin 256) (s : Fin 128) :
    dot_S32x128x256_S32x128x256_S32x256x256_1_1_2_2_0_0.lhsIdx (ix3 b d e) ((contrEquiv1 dot_S32x128x256_S32x128x256_S32x256x256_1_1_2_2_0_0 128 rfl rfl).symm s) = ix3 b s d := by
  have hs := contrEquiv1_symm_val dot_S32x128x256_S32x128x256_S32x256x256_1_1_2_2_0_0 128 rfl rfl s
  exact funext fun a => Fin.ext (by
    match a with
    | ⟨0, _⟩ => exact tp_lhs_0 _ _
    | ⟨1, _⟩ => exact (dot_S32x128x256_S32x128x256_S32x256x256_1_1_2_2_0_0.lhsIdx_val_of_single rfl (ix3 b d e) _).trans hs
    | ⟨2, _⟩ => exact tp_lhs_2 _ _)

/-- The contraction's right operand index there: (b, s, e). -/
theorem tp_rhsIdx (b : Fin 32) (d e : Fin 256) (s : Fin 128) :
    dot_S32x128x256_S32x128x256_S32x256x256_1_1_2_2_0_0.rhsIdx (ix3 b d e) ((contrEquiv1 dot_S32x128x256_S32x128x256_S32x256x256_1_1_2_2_0_0 128 rfl rfl).symm s) = ix3 b s e := by
  have hs := contrEquiv1_symm_val dot_S32x128x256_S32x128x256_S32x256x256_1_1_2_2_0_0 128 rfl rfl s
  exact funext fun a => Fin.ext (by
    match a with
    | ⟨0, _⟩ => exact tp_rhs_0 _ _
    | ⟨1, _⟩ => exact (dot_S32x128x256_S32x128x256_S32x256x256_1_1_2_2_0_0.rhsIdx_val_of_single rfl (ix3 b d e) _).trans hs
    | ⟨2, _⟩ => exact tp_rhs_2 _ _)

/-- The block of products: entry (b, d, e) is ∑ s, x0 (b, s, d) · x1 (b, s, e). -/
theorem k0_pay1_apply (x0 x1 : Vec Ideal S32x128x256 .bf16) (b : Fin 32) (d e : Fin 256) :
    k0_pay1 (F := Ideal) x0 x1 (ix3 b d e) = ∑ s : Fin 128, x0 (ix3 b s d) * x1 (ix3 b s e) := by
  unfold k0_pay1
  rw [shapeCast_self, shapeCast_self]
  refine (truncf_apply (φ := .f32) (ψ := .bf16) _ bitsLt_bf16_f32 (ix3 b d e)).trans ?_
  exact Cert.LibContractSum.matmul_zero_sum (φ₁ := .bf16) (φ₂ := .bf16) dot_S32x128x256_S32x128x256_S32x256x256_1_1_2_2_0_0 none 128 rfl rfl x0 x1 (ix3 b d e)
    (fun s => ix3 b s d) (fun s => ix3 b s e) (fun s => tp_lhsIdx b d e s) (fun s => tp_rhsIdx b d e s)

end Cert.Proof.Bridge

end
-- ==== Proof.TpBlocks.lean ====
/-
  The first region's blocks in their arrays, what a point writes back, and the cover.

  The region's 2 points each take 32 of the 64 batches: at point t the two operand blocks are batches
  t · 32 … t · 32 + 31 of the gathered rows (all 128 positions, all 256 columns), and the output block is the same batches
  of the 64 × 256 × 256 array of products.  An element of a block sits in its array at the block's index times the
  block's size plus its own coordinate, axis by axis.

  The products array as one function of the two operand arrays: entry (b, d, e) is ∑ s, A0 (b, s, d) · A1 (b, s, e).
  What point t writes back is its block of that array, and every entry of the array lies in the block of the point
  that takes its batch, b / 32.
-/
import proofs.«181320_j70016556860030_2_alg».proof.Proof.Gen.KernelIdeal.Regions
import proofs.«181320_j70016556860030_2_alg».proof.Proof.Gen.KernelIdeal.Points
import proofs.«181320_j70016556860030_2_alg».proof.Proof.PayTp
import Idealize.ShloMosaic.Lib.Pipeline.Value

set_option maxRecDepth 16384

noncomputable section

namespace Cert.Proof.Bridge

open Cert.KernelIdeal Cert.KernelIdeal.Gen Idealize.ShloMosaic Idealize.ShloMosaic.ValueIdx Idealize.ShloMosaic.TcCoe
  Idealize.SL.Sem

/-- The array of products of the operand arrays `A0`, `A1`. -/
def productsOf (A0 A1 : S64x128x256.Idx → EReal) : S64x256x256.Idx → EReal :=
  fun i => ∑ s : Fin 128, A0 (ix3 (i 0) s (i 1)) * A1 (ix3 (i 0) s (i 2))

/-- At (b, d, e): ∑ s, A0 (b, s, d) · A1 (b, s, e). -/
theorem productsOf_apply (A0 A1 : S64x128x256.Idx → EReal) (b : Fin 64) (d e : Fin 256) :
    productsOf A0 A1 (ix3 b d e) = ∑ s : Fin 128, A0 (ix3 b s d) * A1 (ix3 b s e) := rfl

/-- The three windows' block indices at every point of the grid: the point's number on the batch axis, 0 elsewhere. -/
theorem tp_idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The grid has 2 points. -/
theorem tp_N : cfg0.N = 2 := by decide

/-- A batch of point t's block is below 64. -/
theorem tp_batch_lt (t : Fin cfg0.N) (p : Fin 32) : t.val * 32 + p.val < 64 := by
  have h : t.val < 2 := lt_of_lt_of_eq t.isLt tp_N
  have := p.isLt; omega

/-- The left operand block's element (p, s, d) is the array's (t · 32 + p, s, d). -/
theorem tp_emb0 (t : Fin cfg0.N) (p : Fin 32) (s : Fin 128) (d : Fin 256) :
    ((cfg0.win 0).blk t).view.emb (ix3 p s d) = ix3 ⟨t.val * 32 + p.val, tp_batch_lt t p⟩ s d := by
  obtain ⟨e0, e1, e2, -⟩ := tp_idx_facts t
  funext a; apply Fin.ext
  match a with
  | ⟨0, _⟩ => show win0_0.index t (0 : Fin 3) * 32 + 1 * p.val = t.val * 32 + p.val; rw [e0]; omega
  | ⟨1, _⟩ => show win0_0.index t (1 : Fin 3) * 128 + 1 * s.val = s.val; rw [e1]; omega
  | ⟨2, _⟩ => show win0_0.index t (2 : Fin 3) * 256 + 1 * d.val = d.val; rw [e2]; omega

/-- The right operand block's element likewise. -/
theorem tp_emb1 (t : Fin cfg0.N) (p : Fin 32) (s : Fin 128) (d : Fin 256) :
    ((cfg0.win 1).blk t).view.emb (ix3 p s d) = ix3 ⟨t.val * 32 + p.val, tp_batch_lt t p⟩ s d := by
  obtain ⟨-, -, -, e0, e1, e2, -⟩ := tp_idx_facts t
  funext a; apply Fin.ext
  match a with
  | ⟨0, _⟩ => show win0_1.index t (0 : Fin 3) * 32 + 1 * p.val = t.val * 32 + p.val; rw [e0]; omega
  | ⟨1, _⟩ => show win0_1.index t (1 : Fin 3) * 128 + 1 * s.val = s.val; rw [e1]; omega
  | ⟨2, _⟩ => show win0_1.index t (2 : Fin 3) * 256 + 1 * d.val = d.val; rw [e2]; omega

/-- The output block's element (p, d, e) is the array's (t · 32 + p, d, e). -/
theorem tp_emb2 (t : Fin cfg0.N) (p : Fin 32) (d e : Fin 256) :
    ((cfg0.win 2).blk t).view.emb (ix3 p d e) = ix3 ⟨t.val * 32 + p.val, tp_batch_lt t p⟩ d e := by
  obtain ⟨-, -, -, -, -, -, e0, e1, e2⟩ := tp_idx_facts t
  funext a; apply Fin.ext
  match a with
  | ⟨0, _⟩ => show win0_2.index t (0 : Fin 3) * 32 + 1 * p.val = t.val * 32 + p.val; rw [e0]; omega
  | ⟨1, _⟩ => show win0_2.index t (1 : Fin 3) * 256 + 1 * d.val = d.val; rw [e1]; omega
  | ⟨2, _⟩ => show win0_2.index t (2 : Fin 3) * 256 + 1 * e.val = e.val; rw [e2]; omega

/-- What a point of the first region writes back — the payload of its two operand blocks — is its block of the products
    array of the two operand arrays. -/
theorem tp_flushed (A0 A1 : S64x128x256.Idx → EReal) (t : Fin cfg0.N) :
    (cfg0.win 2).cut (grid0.coords t)
        (k0_pay1 (F := Ideal) (((cfg0.win 0).blk t).view.read (Elt Ideal) A0) (((cfg0.win 1).blk t).view.read (Elt Ideal) A1))
      = ((cfg0.win 2).blk t).view.read (Elt Ideal) (productsOf A0 A1) := by
  funext j
  obtain ⟨p, d, e, rfl⟩ : ∃ (p : Fin 32) (d e : Fin 256), j = ix3 p d e := ⟨j 0, j 1, j 2, eq_ix3 j⟩
  show k0_pay1 (F := Ideal) _ _ (ix3 p d e) = productsOf A0 A1 (((cfg0.win 2).blk t).view.emb (ix3 p d e))
  rw [k0_pay1_apply, tp_emb2]
  refine Finset.sum_congr rfl fun s _ => ?_
  show A0 (((cfg0.win 0).blk t).view.emb (ix3 p s d)) * A1 (((cfg0.win 1).blk t).view.emb (ix3 p s e)) = _
  rw [tp_emb0, tp_emb1]

/-- Every entry of the products array is in the block of the point that takes its batch. -/
theorem tp_cover (i : S64x256x256.Idx) :
    ∃ t : Fin cfg0.N, (cfg0.win 2).flush t = true ∧ i ∈ ((cfg0.win 2).blk t).view.set := by
  obtain ⟨b, d, e, rfl⟩ : ∃ (b : Fin 64) (d e : Fin 256), i = ix3 b d e := ⟨i 0, i 1, i 2, eq_ix3 i⟩
  have hb := b.isLt
  have ht : b.val / 32 < cfg0.N := lt_of_lt_of_eq (show b.val / 32 < 2 by omega) tp_N.symm
  refine ⟨⟨b.val / 32, ht⟩, flush0_2 _, ?_⟩
  have h : ((cfg0.win 2).blk ⟨b.val / 32, ht⟩).view.emb (ix3 ⟨b.val % 32, Nat.mod_lt _ (by decide)⟩ d e) = ix3 b d e := by
    rw [tp_emb2]
    funext a; apply Fin.ext
    match a with
    | ⟨0, _⟩ => show b.val / 32 * 32 + b.val % 32 = b.val; omega
    | ⟨1, _⟩ => rfl
    | ⟨2, _⟩ => rfl
  rw [← h]
  exact View.emb_mem_set _ _

end Cert.Proof.Bridge

end
-- ==== Proof.ArrTp.lean ====
/-
  The array the first region leaves: every entry of the 64 × 256 × 256 result array is the product
  ∑ s, f (b, s, d) · r (b, s, e) of the region's two operand arrays as the region finds them.

  Each of the two points writes back its block of that one array of products, and the two blocks cover all 64 batches,
  so after the last point the array holds the products everywhere.
-/
import proofs.«181320_j70016556860030_2_alg».proof.Proof.IdealRegions
import proofs.«181320_j70016556860030_2_alg».proof.Proof.TpBlocks

set_option maxRecDepth 16384

noncomputable section

namespace Cert.Proof.Bridge

open Cert.KernelIdeal Cert.KernelIdeal.Gen Cert.KernelIdeal.Hand Idealize.ShloMosaic Idealize.ShloMosaic.ValueIdx
  Idealize.ShloMosaic.TcCoe Idealize.SL.Sem
open Idealize.ShloMosaic.Pipeline (Dat)

variable (V : (c : Dev nD) → (b : Ref sig .tc) → Buf (Elt Ideal) ((c : Thread nD τ).loc b))

/-- What point `t` of the first region writes back is its block of the products of the two operand arrays. -/
theorem tp_flushed_eq (c : Dev nD) (t : Fin cfg0.N) :
    (tpDat V c).flushed 2 t
      = ((cfg0.win 2).blk t).view.read (Elt Ideal)
          (productsOf (V c main_v7 : S64x128x256.Idx → EReal) (V c main_v15 : S64x128x256.Idx → EReal)) := by
  show (cfg0.win 2).cut (grid0.coords t) ((tpDat V c).after 2 t) = _
  rw [tp_after_2]
  exact tp_flushed (V c main_v7 : S64x128x256.Idx → EReal) (V c main_v15 : S64x128x256.Idx → EReal) t

/-- The first region's result array after the run: the products of the two operand arrays. -/
theorem tp_arr (c : Dev nD) :
    (tpDat V c).arrAt 2 cfg0.N
      = productsOf (V c main_v7 : S64x128x256.Idx → EReal) (V c main_v15 : S64x128x256.Idx → EReal) :=
  (tpDat V c).arrAt_eq_of_cover 2 _ (fun t _ => tp_flushed_eq V c t) tp_cover

/-- At an entry, with the two operand arrays named: whatever `f` and `r` the region finds in its operand buffers, the
    result's entry (b, d, e) is ∑ s, f (b, s, d) · r (b, s, e). -/
theorem tp_arr_apply (c : Dev nD) (f r : S64x128x256.Idx → EReal) (hf : V c main_v7 = f) (hr : V c main_v15 = r)
    (b : Fin 64) (d e : Fin 256) :
    (tpDat V c).arrAt 2 cfg0.N (ix3 b d e) = ∑ s : Fin 128, f (ix3 b s d) * r (ix3 b s e) := by
  subst hf hr
  rw [tp_arr]; rfl

/-- The whole array, with the two operand arrays named. -/
theorem tp_arr_of (c : Dev nD) (f r : S64x128x256.Idx → EReal) (hf : V c main_v7 = f) (hr : V c main_v15 = r) :
    (tpDat V c).arrAt 2 cfg0.N = productsOf f r := by
  subst hf hr
  exact tp_arr V c

end Cert.Proof.Bridge

end
-- ==== Proof.LinBlocks.lean ====
/-
  Where the second region's blocks sit in their arrays.

  The region's 32 points are 2 output blocks of 512 columns times 16 contraction blocks of 4096 positions: point t works
  on output block t / 16 and contraction block t % 16.  At point t the activation block is columns
  (t % 16) · 4096 … + 4095 of all 64 rows; the weight block is rows (t / 16) · 512 … + 511 and the same columns; the bias
  block and the output block are columns (t / 16) · 512 … + 511.  An element of a block sits in its array at the block's
  index times the block's size plus its own coordinate, axis by axis.

  The result of the region as one function of the three arrays it reads: entry (m, n) is the full contraction
  ∑ k, a (m, k) · w (n, k) plus the bias row's entry n.
-/
import proofs.«181320_j70016556860030_2_alg».proof.Proof.Gen.KernelIdeal.Regions
import Idealize.ShloMosaic.Lib.Pipeline.Value
import Idealize.ShloMosaic.Lib.ValueIdx

set_option maxRecDepth 16384

noncomputable section

namespace Cert.Proof.Bridge

open Cert.KernelIdeal Cert.KernelIdeal.Gen Idealize.ShloMosaic Idealize.ShloMosaic.ValueIdx Idealize.ShloMosaic.TcCoe
  Idealize.SL.Sem

/-- The second region's result from the activations `A0`, the weights `A1` and the bias row `A2`. -/
def linearOf (A0 : S64x65536.Idx → EReal) (A1 : S1024x65536.Idx → EReal) (A2 : S1x1024.Idx → EReal) : S64x1024.Idx → EReal :=
  fun i => (∑ k : Fin 65536, A0 (ix2 (i 0) k) * A1 (ix2 (i 1) k)) + A2 (ix2 0 (i 1))

/-- At (m, n): the contraction of row m of the activations with row n of the weights, plus the bias entry n. -/
theorem linearOf_apply (A0 : S64x65536.Idx → EReal) (A1 : S1024x65536.Idx → EReal) (A2 : S1x1024.Idx → EReal)
    (m : Fin 64) (n : Fin 1024) :
    linearOf A0 A1 A2 (ix2 m n) = (∑ k : Fin 65536, A0 (ix2 m k) * A1 (ix2 n k)) + A2 (ix2 0 n) := rfl

/-- The four windows' block indices at every point of the grid. -/
theorem lin_idx_facts : ∀ t : Fin cfg1.N,
    win1_0.index t (0 : Fin 2) = 0 ∧ win1_0.index t (1 : Fin 2) = t.val % 16
    ∧ win1_1.index t (0 : Fin 2) = t.val / 16 ∧ win1_1.index t (1 : Fin 2) = t.val % 16
    ∧ win1_2.index t (0 : Fin 2) = 0 ∧ win1_2.index t (1 : Fin 2) = t.val / 16
    ∧ win1_3.index t (0 : Fin 2) = 0 ∧ win1_3.index t (1 : Fin 2) = t.val / 16 :=
  (by decide +kernel : ∀ t : Fin grid1.N, _)

/-- The grid has 32 points. -/
theorem lin_N : cfg1.N = 32 := by decide

/-- A position of contraction block t % 16 is below 65536. -/
theorem lin_col_lt (t : Fin cfg1.N) (l : Fin 4096) : t.val % 16 * 4096 + l.val < 65536 := by
  have := l.isLt; omega

/-- A column of output block t / 16 is below 1024. -/
theorem lin_row_lt (t : Fin cfg1.N) (q : Fin 512) : t.val / 16 * 512 + q.val < 1024 := by
  have h : t.val < 32 := lt_of_lt_of_eq t.isLt lin_N
  have := q.isLt; omega

/-- The activation block's element (m, l) is the array's (m, (t % 16) · 4096 + l). -/
theorem lin_emb0 (t : Fin cfg1.N) (m : Fin 64) (l : Fin 4096) :
    ((cfg1.win 0).blk t).view.emb (ix2 m l) = ix2 m ⟨t.val % 16 * 4096 + l.val, lin_col_lt t l⟩ := by
  obtain ⟨e0, e1, -⟩ := lin_idx_facts t
  funext a; apply Fin.ext
  match a with
  | ⟨0, _⟩ => show win1_0.index t (0 : Fin 2) * 64 + 1 * m.val = m.val; rw [e0]; omega
  | ⟨1, _⟩ => show win1_0.index t (1 : Fin 2) * 4096 + 1 * l.val = t.val % 16 * 4096 + l.val; rw [e1]; omega

/-- The weight block's element (q, l) is the array's ((t / 16) · 512 + q, (t % 16) · 4096 + l). -/
theorem lin_emb1 (t : Fin cfg1.N) (q : Fin 512) (l : Fin 4096) :
    ((cfg1.win 1).blk t).view.emb (ix2 q l)
      = ix2 ⟨t.val / 16 * 512 + q.val, lin_row_lt t q⟩ ⟨t.val % 16 * 4096 + l.val, lin_col_lt t l⟩ := by
  obtain ⟨-, -, e0, e1, -⟩ := lin_idx_facts t
  funext a; apply Fin.ext
  match a with
  | ⟨0, _⟩ => show win1_1.index t (0 : Fin 2) * 512 + 1 * q.val = t.val / 16 * 512 + q.val; rw [e0]; omega
  | ⟨1, _⟩ => show win1_1.index t (1 : Fin 2) * 4096 + 1 * l.val = t.val % 16 * 4096 + l.val; rw [e1]; omega

/-- The bias block's element (0, q) is the row's (0, (t / 16) · 512 + q). -/
theorem lin_emb2 (t : Fin cfg1.N) (q : Fin 512) :
    ((cfg1.win 2).blk t).view.emb (ix2 0 q) = ix2 0 ⟨t.val / 16 * 512 + q.val, lin_row_lt t q⟩ := by
  obtain ⟨-, -, -, -, e0, e1, -⟩ := lin_idx_facts t
  funext a; apply Fin.ext
  match a with
  | ⟨0, _⟩ => show win1_2.index t (0 : Fin 2) * 1 + 1 * 0 = 0; rw [e0]
  | ⟨1, _⟩ => show win1_2.index t (1 : Fin 2) * 512 + 1 * q.val = t.val / 16 * 512 + q.val; rw [e1]; omega

/-- The output block's element (m, q) is the array's (m, (t / 16) · 512 + q). -/
theorem lin_emb3 (t : Fin cfg1.N) (m : Fin 64) (q : Fin 512) :
    ((cfg1.win 3).blk t).view.emb (ix2 m q) = ix2 m ⟨t.val / 16 * 512 + q.val, lin_row_lt t q⟩ := by
  obtain ⟨-, -, -, -, -, -, e0, e1⟩ := lin_idx_facts t
  funext a; apply Fin.ext
  match a with
  | ⟨0, _⟩ => show win1_3.index t (0 : Fin 2) * 64 + 1 * m.val = m.val; rw [e0]; omega
  | ⟨1, _⟩ => show win1_3.index t (1 : Fin 2) * 512 + 1 * q.val = t.val / 16 * 512 + q.val; rw [e1]; omega

end Cert.Proof.Bridge

end
-- ==== Proof.PayLin.lean ====
/-
  The second region's three payloads, each read at one entry of its 64 × 512 block on the extended reals.

  The region keeps a 64 × 512 accumulator.  At the first contraction block it is reset to the zero word, which is the
  extended real 0.  At every contraction block it becomes itself plus the product of a 64 × 4096 block of the activations
  with a 512 × 4096 block of the weights, contracted over the 4096 columns both blocks share: entry (p, q) gains
  ∑ l, a (p, l) · w (q, l).  At the last contraction block the output is the accumulator plus the bias row, the same row
  added to every one of the 64 rows.  Changes of float format are the identity on the extended reals, and a reshape to the
  same shape is the identity.
-/
import proofs.«181320_j70016556860030_2_alg».proof.Proof.Gen.KernelIdeal.Skeleton
import proofs.«181320_j70016556860030_2_alg».proof.Proof.LibContractSum
import Idealize.ShloMosaic.Lib.Pipeline.Value
import Idealize.ShloMosaic.Lib.ValueIdx
import Idealize.ShloMosaic.PureOps.Ideal.Laws

noncomputable section

namespace Cert.Proof.Bridge

open Cert.KernelIdeal Cert.KernelIdeal.Gen Idealize.ShloMosaic Idealize.ShloMosaic.ValueIdx

/-- On the left operand's row axis the contraction reads the output entry's row. -/
theorem lin_lhs_0 (i : S64x512.Idx) (c : dot_S64x4096_S512x4096_S64x512_1_1_0_0_n_n.contr.Idx) :
    (dot_S64x4096_S512x4096_S64x512_1_1_0_0_n_n.lhsIdx i c 0).val = (i 0).val := by
  unfold DotDims.lhsIdx
  rw [dif_neg (show ¬(0 : Fin S64x4096.rank) ∈ dot_S64x4096_S512x4096_S64x512_1_1_0_0_n_n.lhsBatch by decide),
    dif_pos (show (0 : Fin S64x4096.rank) ∈ dot_S64x4096_S512x4096_S64x512_1_1_0_0_n_n.lhsNonContracting by decide)]
  rfl

/-- On the right operand's row axis the contraction reads the output entry's column. -/
theorem lin_rhs_0 (i : S64x512.Idx) (c : dot_S64x4096_S512x4096_S64x512_1_1_0_0_n_n.contr.Idx) :
    (dot_S64x4096_S512x4096_S64x512_1_1_0_0_n_n.rhsIdx i c 0).val = (i 1).val := by
  unfold DotDims.rhsIdx
  rw [dif_neg (show ¬(0 : Fin S512x4096.rank) ∈ dot_S64x4096_S512x4096_S64x512_1_1_0_0_n_n.rhsBatch by decide),
    dif_pos (show (0 : Fin S512x4096.rank) ∈ dot_S64x4096_S512x4096_S64x512_1_1_0_0_n_n.rhsNonContracting by decide)]
  rfl

/-- The contraction's left operand index: row `p` of the output entry, column `l` of the contraction. -/
theorem lin_lhsIdx (p : Fin 64) (q : Fin 512) (l : Fin 4096) :
    (dot_S64x4096_S512x4096_S64x512_1_1_0_0_n_n).lhsIdx (ix2 p q)
        ((contrEquiv1 dot_S64x4096_S512x4096_S64x512_1_1_0_0_n_n 4096 rfl rfl).symm l) = ix2 p l := by
  have hl := contrEquiv1_symm_val dot_S64x4096_S512x4096_S64x512_1_1_0_0_n_n 4096 rfl rfl l
  exact funext fun a => Fin.ext (by
    match a with
    | ⟨0, _⟩ => exact lin_lhs_0 _ _
    | ⟨1, _⟩ => exact ((dot_S64x4096_S512x4096_S64x512_1_1_0_0_n_n).lhsIdx_val_of_single rfl (ix2 p q) _).trans hl)

/-- The contraction's right operand index: row `q` (the output entry's column), column `l` of the contraction. -/
theorem lin_rhsIdx (p : Fin 64) (q : Fin 512) (l : Fin 4096) :
    (dot_S64x4096_S512x4096_S64x512_1_1_0_0_n_n).rhsIdx (ix2 p q)
        ((contrEquiv1 dot_S64x4096_S512x4096_S64x512_1_1_0_0_n_n 4096 rfl rfl).symm l) = ix2 q l := by
  have hl := contrEquiv1_symm_val dot_S64x4096_S512x4096_S64x512_1_1_0_0_n_n 4096 rfl rfl l
  exact funext fun a => Fin.ext (by
    match a with
    | ⟨0, _⟩ => exact lin_rhs_0 _ _
    | ⟨1, _⟩ => exact ((dot_S64x4096_S512x4096_S64x512_1_1_0_0_n_n).rhsIdx_val_of_single rfl (ix2 p q) _).trans hl)

/-- The reset: every entry of the accumulator is the extended real 0. -/
theorem k1_pay1_apply (p : Fin 64) (q : Fin 512) : k1_pay1 (F := Ideal) (ix2 p q) = 0 := by
  unfold k1_pay1
  rw [shapeCast_self]
  exact Ideal.ofBits_zero_f32

/-- One contraction block: entry (p, q) of the accumulator gains ∑ l, a (p, l) · w (q, l). -/
theorem k1_pay2_apply (a : Vec Ideal S64x4096 .bf16) (w : Vec Ideal S512x4096 .f32) (acc : Vec Ideal S64x512 .f32)
    (p : Fin 64) (q : Fin 512) :
    k1_pay2 (F := Ideal) a w acc (ix2 p q) = acc (ix2 p q) + ∑ l : Fin 4096, a (ix2 p l) * w (ix2 q l) := by
  unfold k1_pay2
  rw [shapeCast_self, shapeCast_self]
  refine congrArg (acc (ix2 p q) + ·) ?_
  exact Cert.LibContractSum.matmul_zero_sum dot_S64x4096_S512x4096_S64x512_1_1_0_0_n_n none 4096 rfl rfl a
    (truncf .bf16 w bitsLt_bf16_f32) (ix2 p q) (fun l => ix2 p l) (fun l => ix2 q l)
    (fun l => lin_lhsIdx p q l) (fun l => lin_rhsIdx p q l)

/-- The last contraction block: the output entry (p, q) is the accumulator's plus the bias row's entry `q`. -/
theorem k1_pay3_apply (acc : Vec Ideal S64x512 .f32) (bias : Vec Ideal S1x512 .f32) (p : Fin 64) (q : Fin 512) :
    k1_pay3 (F := Ideal) acc bias (ix2 p q) = acc (ix2 p q) + bias (ix2 0 q) := by
  unfold k1_pay3
  rw [shapeCast_self]
  refine congrArg (acc (ix2 p q) + ·) ?_
  exact broadcastTo_apply bias broadcasts_S1x512_S64x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

end Cert.Proof.Bridge

end
-- ==== Proof.SumLaws.lean ====
/-
  Two laws of finite sums in a commutative additive monoid, used on the extended reals: only commutativity and
  associativity of the addition are needed, so no term has to be finite.

  1. A sum over the A · B positions below A · B is the sum, over its A consecutive blocks of length B, of each block's
     sum: position j · B + l is the l-th term of block j.  The instance met here is 65536 = 16 · 4096.
  2. A sequence that starts at 0 and at each step adds one more term ends, after n steps, at the sum of the n terms:
     adding the terms one after the other from the left is the finite sum.
-/
import Mathlib.Algebra.BigOperators.Fin
import Mathlib.Algebra.BigOperators.Intervals
import Mathlib.Data.Fintype.BigOperators
import Mathlib.Logic.Equiv.Fin.Basic

namespace Cert.Proof.Bridge

open Finset

/-- Position `j · B + l` of block `j` lies below `A · B`. -/
theorem block_pos_lt {A B : ℕ} (j : Fin A) (l : Fin B) : j.val * B + l.val < A * B :=
  calc j.val * B + l.val < j.val * B + B := Nat.add_lt_add_left l.isLt _
    _ = (j.val + 1) * B := (Nat.succ_mul _ _).symm
    _ ≤ A * B := Nat.mul_le_mul_right _ j.isLt

/-- A sum over `Fin (A * B)` taken block by block. -/
theorem sum_fin_mul_blocks {β : Type*} [AddCommMonoid β] (A B : ℕ) (g : Fin (A * B) → β) :
    ∑ k : Fin (A * B), g k = ∑ j : Fin A, ∑ l : Fin B, g ⟨j.val * B + l.val, block_pos_lt j l⟩ := by
  rw [← Equiv.sum_comp finProdFinEquiv g, Fintype.sum_prod_type]
  refine sum_congr rfl fun j _ => sum_congr rfl fun l _ => congrArg g (Fin.ext ?_)
  show l.val + B * j.val = j.val * B + l.val
  rw [Nat.add_comm, Nat.mul_comm]

/-- The contraction of length 65536 as its 16 consecutive blocks of length 4096. -/
theorem sum_65536_blocks {β : Type*} [AddCommMonoid β] (g : Fin 65536 → β) :
    ∑ k : Fin 65536, g k
      = ∑ j : Fin 16, ∑ l : Fin 4096, g ⟨j.val * 4096 + l.val, block_pos_lt (A := 16) (B := 4096) j l⟩ :=
  sum_fin_mul_blocks 16 4096 g

/-- Adding terms one after the other from the left, starting from 0: after `n` steps the value is the sum of the first
    `n` terms.  The step equation is only asked below `n`. -/
theorem steps_eq_sum_range {β : Type*} [AddCommMonoid β] (t acc : ℕ → β) (h0 : acc 0 = 0) :
    ∀ n : ℕ, (∀ j, j < n → acc (j + 1) = acc j + t j) → acc n = ∑ j ∈ range n, t j
  | 0, _ => by rw [h0, range_zero, sum_empty]
  | n + 1, hs => by
    rw [hs n (Nat.lt_succ_self n), sum_range_succ,
      steps_eq_sum_range t acc h0 n fun j hj => hs j (Nat.lt_succ_of_lt hj)]

/-- The same with the terms indexed by `Fin n`. -/
theorem steps_eq_sum_fin {β : Type*} [AddCommMonoid β] (n : ℕ) (t : Fin n → β) (acc : ℕ → β) (h0 : acc 0 = 0)
    (hs : ∀ j : Fin n, acc (j.val + 1) = acc j.val + t j) : acc n = ∑ j : Fin n, t j := by
  have h := steps_eq_sum_range (fun j => if h : j < n then t ⟨j, h⟩ else 0) acc h0 n fun j hj => by
    rw [dif_pos hj]; exact hs ⟨j, hj⟩
  rw [h, ← Fin.sum_univ_eq_sum_range (fun j => if h : j < n then t ⟨j, h⟩ else 0) n]
  exact sum_congr rfl fun j _ => by rw [dif_pos j.isLt]

/-- Both laws together, in the form the second region meets: an accumulator that starts at 0 and at contraction block
    `j` gains that block's sum of 4096 terms holds, after the 16 blocks, the whole sum of 65536 terms. -/
theorem steps_16_blocks_4096 {β : Type*} [AddCommMonoid β] (g : Fin 65536 → β) (acc : ℕ → β) (h0 : acc 0 = 0)
    (hs : ∀ j : Fin 16, acc (j.val + 1)
      = acc j.val + ∑ l : Fin 4096, g ⟨j.val * 4096 + l.val, block_pos_lt (A := 16) (B := 4096) j l⟩) :
    acc 16 = ∑ k : Fin 65536, g k := by
  rw [sum_65536_blocks g]
  exact steps_eq_sum_fin 16 _ acc h0 hs

end Cert.Proof.Bridge
-- ==== Proof.LinAcc.lean ====
/-
  The second region's accumulation, what its last contraction block writes back, and the cover.

  Within output block t / 16 the accumulator starts from the zero word at contraction block 0 and gains, at contraction
  block j, the 4096 products of positions j · 4096 … j · 4096 + 4095.  Adding the 16 block sums one after the other from
  0 is the sum over all 65536 positions, so after contraction block 15 the accumulator's entry (m, q) is the full
  contraction of row m of the activations with row (t / 16) · 512 + q of the weights.  The output block written back
  there adds the bias row, so it is the point's block of the region's result array; the two points that write back cover
  all 1024 columns.
-/
import proofs.«181320_j70016556860030_2_alg».proof.Proof.LinBlocks
import proofs.«181320_j70016556860030_2_alg».proof.Proof.Gen.KernelIdeal.Points
import proofs.«181320_j70016556860030_2_alg».proof.Proof.PayLin
import proofs.«181320_j70016556860030_2_alg».proof.Proof.SumLaws

set_option maxRecDepth 16384

noncomputable section

namespace Cert.Proof.Bridge

open Cert.KernelIdeal Cert.KernelIdeal.Gen Idealize.ShloMosaic Idealize.ShloMosaic.ValueIdx Idealize.ShloMosaic.TcCoe
  Idealize.SL.Sem

/-- The accumulator after the last contraction block of an output block: the full contraction. -/
theorem lin_acc_entry (A0 : S64x65536.Idx → EReal) (A1 : S1024x65536.Idx → EReal)
    (acc : ℕ → Vec Ideal S64x512 .f32)
    (hacc : ∀ u : Fin cfg1.N, acc (u.val + 1)
      = k1_pay2 (F := Ideal) (((cfg1.win 0).blk u).view.read (Elt Ideal) A0) (((cfg1.win 1).blk u).view.read (Elt Ideal) A1)
          (if u.val % 16 = 0 then (k1_pay1 (F := Ideal) : Vec Ideal S64x512 .f32) else acc u.val))
    (t : Fin cfg1.N) (ht : t.val % 16 = 15) (m : Fin 64) (q : Fin 512) :
    acc (t.val + 1) (ix2 m q)
      = ∑ k : Fin 65536, A0 (ix2 m k) * A1 (ix2 ⟨t.val / 16 * 512 + q.val, lin_row_lt t q⟩ k) := by
  have hN : t.val < 32 := lt_of_lt_of_eq t.isLt lin_N
  have hstep := steps_16_blocks_4096
    (fun k : Fin 65536 => A0 (ix2 m k) * A1 (ix2 ⟨t.val / 16 * 512 + q.val, lin_row_lt t q⟩ k))
    (fun j => if j = 0 then (0 : EReal) else acc (t.val / 16 * 16 + j) (ix2 m q)) (if_pos rfl) (fun j => by
      have hj := j.isLt
      have hu : t.val / 16 * 16 + j.val < cfg1.N := lt_of_lt_of_eq (show t.val / 16 * 16 + j.val < 32 by omega) lin_N.symm
      rw [if_neg (Nat.succ_ne_zero _)]
      have h := congrFun (hacc ⟨t.val / 16 * 16 + j.val, hu⟩) (ix2 m q)
      rw [k1_pay2_apply] at h
      rw [show t.val / 16 * 16 + (j.val + 1) = t.val / 16 * 16 + j.val + 1 from rfl, h]
      refine congrArg₂ (· + ·) ?_ (Finset.sum_congr rfl fun l _ => ?_)
      · show (if (t.val / 16 * 16 + j.val) % 16 = 0 then (k1_pay1 (F := Ideal) : Vec Ideal S64x512 .f32)
            else acc (t.val / 16 * 16 + j.val)) (ix2 m q) = _
        by_cases hj0 : j.val = 0
        · rw [if_pos (show (t.val / 16 * 16 + j.val) % 16 = 0 by omega), if_pos hj0]
          exact k1_pay1_apply m q
        · rw [if_neg (show ¬(t.val / 16 * 16 + j.val) % 16 = 0 by omega), if_neg hj0]
      · show A0 (((cfg1.win 0).blk ⟨t.val / 16 * 16 + j.val, hu⟩).view.emb (ix2 m l))
            * A1 (((cfg1.win 1).blk ⟨t.val / 16 * 16 + j.val, hu⟩).view.emb (ix2 q l)) = _
        rw [lin_emb0, lin_emb1]
        have e1 : (⟨(t.val / 16 * 16 + j.val) % 16 * 4096 + l.val, lin_col_lt ⟨t.val / 16 * 16 + j.val, hu⟩ l⟩ : Fin 65536)
            = ⟨j.val * 4096 + l.val, block_pos_lt (A := 16) (B := 4096) j l⟩ := Fin.ext (by
          show (t.val / 16 * 16 + j.val) % 16 * 4096 + l.val = j.val * 4096 + l.val; omega)
        have e2 : (⟨(t.val / 16 * 16 + j.val) / 16 * 512 + q.val, lin_row_lt ⟨t.val / 16 * 16 + j.val, hu⟩ q⟩ : Fin 1024)
            = ⟨t.val / 16 * 512 + q.val, lin_row_lt t q⟩ := Fin.ext (by
          show (t.val / 16 * 16 + j.val) / 16 * 512 + q.val = t.val / 16 * 512 + q.val; omega)
        exact congrArg₂ (· * ·) (congrArg (fun k => A0 (ix2 m k)) e1)
          (congrArg₂ (fun r k => A1 (ix2 r k)) e2 e1))
  rw [if_neg (by decide)] at hstep
  rw [← hstep, show t.val + 1 = t.val / 16 * 16 + 16 by omega]

/-- What the last contraction block of an output block writes back is its block of the region's result array. -/
theorem lin_flushed (A0 : S64x65536.Idx → EReal) (A1 : S1024x65536.Idx → EReal) (A2 : S1x1024.Idx → EReal)
    (acc : ℕ → Vec Ideal S64x512 .f32)
    (hacc : ∀ u : Fin cfg1.N, acc (u.val + 1)
      = k1_pay2 (F := Ideal) (((cfg1.win 0).blk u).view.read (Elt Ideal) A0) (((cfg1.win 1).blk u).view.read (Elt Ideal) A1)
          (if u.val % 16 = 0 then (k1_pay1 (F := Ideal) : Vec Ideal S64x512 .f32) else acc u.val))
    (t : Fin cfg1.N) (ht : t.val % 16 = 15) :
    (cfg1.win 3).cut (grid1.coords t)
        (k1_pay3 (F := Ideal) (acc (t.val + 1)) (((cfg1.win 2).blk t).view.read (Elt Ideal) A2))
      = ((cfg1.win 3).blk t).view.read (Elt Ideal) (linearOf A0 A1 A2) := by
  funext j
  obtain ⟨m, q, rfl⟩ : ∃ (m : Fin 64) (q : Fin 512), j = ix2 m q := ⟨j 0, j 1, eq_ix2 j⟩
  show k1_pay3 (F := Ideal) _ _ (ix2 m q) = linearOf A0 A1 A2 (((cfg1.win 3).blk t).view.emb (ix2 m q))
  rw [k1_pay3_apply, lin_emb3, linearOf_apply, lin_acc_entry A0 A1 acc hacc t ht m q]
  refine congrArg (_ + ·) ?_
  show A2 (((cfg1.win 2).blk t).view.emb (ix2 0 q)) = _
  rw [lin_emb2]

/-- Every entry of the region's result array is in the block of the last contraction block of its output block. -/
theorem lin_cover (i : S64x1024.Idx) :
    ∃ t : Fin cfg1.N, (cfg1.win 3).flush t = true ∧ i ∈ ((cfg1.win 3).blk t).view.set := by
  obtain ⟨m, n, rfl⟩ : ∃ (m : Fin 64) (n : Fin 1024), i = ix2 m n := ⟨i 0, i 1, eq_ix2 i⟩
  have hn := n.isLt
  have ht : n.val / 512 * 16 + 15 < cfg1.N := lt_of_lt_of_eq (show n.val / 512 * 16 + 15 < 32 by omega) lin_N.symm
  refine ⟨⟨n.val / 512 * 16 + 15, ht⟩, (flush1_3 _).mpr (by show (n.val / 512 * 16 + 15) % 16 = 15; omega), ?_⟩
  have h : ((cfg1.win 3).blk ⟨n.val / 512 * 16 + 15, ht⟩).view.emb (ix2 m ⟨n.val % 512, Nat.mod_lt _ (by decide)⟩) = ix2 m n := by
    rw [lin_emb3]
    funext a; apply Fin.ext
    match a with
    | ⟨0, _⟩ => rfl
    | ⟨1, _⟩ => show (n.val / 512 * 16 + 15) / 16 * 512 + n.val % 512 = n.val; omega
  rw [← h]
  exact View.emb_mem_set _ _

end Cert.Proof.Bridge

end
-- ==== Proof.ArrLin.lean ====
/-
  The array the second region leaves: entry (m, n) of the 64 × 1024 result is the full contraction
  ∑ k, a (m, k) · w (n, k) of the activations with the weights, plus the bias row's entry n — the three arrays as the
  region finds them.

  The output window is written back only at the last contraction block of each output block; what is written there is
  the point's block of that one array, and the two write-backs cover all 1024 columns.
-/
import proofs.«181320_j70016556860030_2_alg».proof.Proof.IdealRegions
import proofs.«181320_j70016556860030_2_alg».proof.Proof.LinAcc

set_option maxRecDepth 16384

noncomputable section

namespace Cert.Proof.Bridge

open Cert.KernelIdeal Cert.KernelIdeal.Gen Cert.KernelIdeal.Hand Idealize.ShloMosaic Idealize.ShloMosaic.ValueIdx
  Idealize.ShloMosaic.TcCoe Idealize.SL.Sem
open Idealize.ShloMosaic.Pipeline (Dat)

variable (V : (c : Dev nD) → (b : Ref sig .tc) → Buf (Elt Ideal) ((c : Thread nD τ).loc b))

/-- What a writing-back point of the second region writes back is its block of the region's result array. -/
theorem lin_flushed_eq (c : Dev nD) (t : Fin cfg1.N) (hf : (cfg1.win 3).flush t = true) :
    (linDat V c).flushed 3 t
      = ((cfg1.win 3).blk t).view.read (Elt Ideal)
          (linearOf (V c main_v17 : S64x65536.Idx → EReal) (V c main_arg4 : S1024x65536.Idx → EReal)
            (V c main_v18 : S1x1024.Idx → EReal)) := by
  show (cfg1.win 3).cut (grid1.coords t) ((linDat V c).after 3 t) = _
  rw [lin_after_3]
  exact lin_flushed (V c main_v17 : S64x65536.Idx → EReal) (V c main_arg4 : S1024x65536.Idx → EReal)
    (V c main_v18 : S1x1024.Idx → EReal) (accBefore V c) (fun u => accBefore_succ V c u) t ((flush1_3 t).mp hf)

/-- The second region's result array after the run. -/
theorem lin_arr (c : Dev nD) :
    (linDat V c).arrAt 3 cfg1.N
      = linearOf (V c main_v17 : S64x65536.Idx → EReal) (V c main_arg4 : S1024x65536.Idx → EReal)
          (V c main_v18 : S1x1024.Idx → EReal) :=
  (linDat V c).arrAt_eq_of_cover 3 _ (fun t hf => lin_flushed_eq V c t hf) lin_cover

/-- At an entry, with the three arrays named: whatever activations `a`, weights `w` and bias row `b` the region finds,
    the result's entry (m, n) is ∑ k, a (m, k) · w (n, k) + b (0, n). -/
theorem lin_arr_apply (c : Dev nD) (a : S64x65536.Idx → EReal) (w : S1024x65536.Idx → EReal) (b : S1x1024.Idx → EReal)
    (ha : V c main_v17 = a) (hw : V c main_arg4 = w) (hb : V c main_v18 = b) (m : Fin 64) (n : Fin 1024) :
    (linDat V c).arrAt 3 cfg1.N (ix2 m n) = (∑ k : Fin 65536, a (ix2 m k) * w (ix2 n k)) + b (ix2 0 n) := by
  subst ha hw hb
  rw [lin_arr]; rfl

/-- The whole array, with the three arrays named. -/
theorem lin_arr_of (c : Dev nD) (a : S64x65536.Idx → EReal) (w : S1024x65536.Idx → EReal) (b : S1x1024.Idx → EReal)
    (ha : V c main_v17 = a) (hw : V c main_arg4 = w) (hb : V c main_v18 = b) :
    (linDat V c).arrAt 3 cfg1.N = linearOf a w b := by
  subst ha hw hb
  exact lin_arr V c

end Cert.Proof.Bridge

end
-- ==== Proof.OutSpec.lean ====
/-
  The result as one function of the argument arrays, entry by entry, and the reference's last stage as that function.

    out (m, n) = ∑ k, (∑ s, f (m, s, k / 256) · r (m, s, k % 256)) · W (n, k)  +  b n,

  with f and r the gathered filler and role rows.
-/
import proofs.«181320_j70016556860030_2_alg».proof.Proof.RefEntry

noncomputable section

namespace Cert.Proof.Bridge

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The entry (m, n) of the result. -/
def outEntry (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal))
    (m : Fin 64) (n : Fin 1024) : EReal :=
  (∑ k : Fin 65536,
      (∑ s : Fin 128, fillerRows x0 x2 (ix3 m s ⟨k.val / 256, ref_div256_lt k⟩)
          * roleRows x1 x3 (ix3 m s ⟨k.val % 256, ref_mod256_lt k⟩))
        * x4 (ix2 n k))
    + x5 (ix1 n)

/-- The whole result array. -/
def outArray (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal)) :
    (⟨S64x1024, .f32⟩ : BufTy).Contents (Elt Ideal) :=
  fun i => outEntry x0 x1 x2 x3 x4 x5 (i 0) (i 1)

/-- The array at (m, n) is the entry. -/
theorem outArray_apply (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal))
    (m : Fin 64) (n : Fin 1024) :
    outArray x0 x1 x2 x3 x4 x5 (ix2 m n) = outEntry x0 x1 x2 x3 x4 x5 m n := rfl

/-- The reference's last stage is that array. -/
theorem reference_eq_outArray (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal)) :
    val_main_v20 (F := Ideal) x0 x1 x2 x3 x4 x5 = outArray x0 x1 x2 x3 x4 x5 := by
  funext i
  obtain ⟨m, n, rfl⟩ : ∃ (m : Fin 64) (n : Fin 1024), i = ix2 m n := ⟨i 0, i 1, eq_ix2 i⟩
  exact reference_apply x0 x1 x2 x3 x4 x5 m n

end Cert.Proof.Bridge

end
-- ==== Proof.EntrySteps.lean ====
/-
  From the second region's accumulation to the result's entry.

  The result's entry (m, n) is a sum of 65536 terms plus the bias entry; term k is the product matrix's entry under
  position k times the weight (n, k).  An accumulator that starts at 0 and gains, at contraction block j, the 4096 terms
  at positions j · 4096 + l holds after the 16 blocks the whole sum, so adding the bias entry gives the result's entry.
  Only commutativity and associativity of the addition of extended reals are used.
-/
import proofs.«181320_j70016556860030_2_alg».proof.Proof.OutSpec
import proofs.«181320_j70016556860030_2_alg».proof.Proof.SumLaws

noncomputable section

namespace Cert.Proof.Bridge

open Cert.ReferenceIdeal Cert.ReferenceIdeal.Gen Idealize.ShloMosaic Idealize.ShloMosaic.ValueIdx
  Idealize.ShloMosaic.TcCoe Idealize.SL.Sem Idealize.ShloMosaic.StableHlo

/-- Term `k` of the entry (m, n): the product matrix's entry under position `k` of row `m`, times the weight (n, k). -/
def outTerm (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (m : Fin 64) (n : Fin 1024) (k : Fin 65536) : EReal :=
  (∑ s : Fin 128, fillerRows x0 x2 (ix3 m s ⟨k.val / 256, ref_div256_lt k⟩)
      * roleRows x1 x3 (ix3 m s ⟨k.val % 256, ref_mod256_lt k⟩))
    * x4 (ix2 n k)

/-- The entry is the sum of its terms plus the bias entry. -/
theorem outEntry_eq_sum (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal))
    (m : Fin 64) (n : Fin 1024) :
    outEntry x0 x1 x2 x3 x4 x5 m n = (∑ k : Fin 65536, outTerm x0 x1 x2 x3 x4 m n k) + x5 (ix1 n) := rfl

/-- Sixteen accumulation steps of 4096 terms each, then the bias: the result's entry. -/
theorem outEntry_of_steps (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal))
    (m : Fin 64) (n : Fin 1024) (acc : ℕ → EReal) (h0 : acc 0 = 0)
    (hs : ∀ j : Fin 16, acc (j.val + 1) = acc j.val
      + ∑ l : Fin 4096, outTerm x0 x1 x2 x3 x4 m n ⟨j.val * 4096 + l.val, block_pos_lt (A := 16) (B := 4096) j l⟩) :
    acc 16 + x5 (ix1 n) = outEntry x0 x1 x2 x3 x4 x5 m n := by
  rw [outEntry_eq_sum, steps_16_blocks_4096 (outTerm x0 x1 x2 x3 x4 m n) acc h0 hs]

end Cert.Proof.Bridge

end
-- ==== Proof.EntryTerm.lean ====
/-
  One term of the second region's contraction, from the first region's products.

  If the 64 × 256 × 256 array the first region leaves holds at (m, d, e) the product ∑ s, f (m, s, d) · r (m, s, e) of
  the gathered rows, then that array viewed as 64 × 65536, read at (m, k) and multiplied by the weight (n, k), is term k
  of the result's entry (m, n): the view reads the matrix entry (k / 256, k % 256).
-/
import proofs.«181320_j70016556860030_2_alg».proof.Proof.HostReshape
import proofs.«181320_j70016556860030_2_alg».proof.Proof.EntrySteps

noncomputable section

namespace Cert.Proof.Bridge

open Idealize.ShloMosaic Idealize.ShloMosaic.ValueIdx Idealize.ShloMosaic.TcCoe Idealize.SL.Sem Idealize.ShloMosaic.StableHlo

/-- The reshaped products at (m, k) times the weight (n, k) is term `k` of the entry (m, n). -/
theorem outTerm_of_products (x0 x1 : (⟨Cert.KernelIdeal.S64x128, .i32⟩ : BufTy).Contents (Elt Ideal))
    (x2 : (⟨Cert.KernelIdeal.S50257x256, .f32⟩ : BufTy).Contents (Elt Ideal))
    (x3 : (⟨Cert.KernelIdeal.S512x256, .f32⟩ : BufTy).Contents (Elt Ideal))
    (x4 : (⟨Cert.KernelIdeal.S1024x65536, .f32⟩ : BufTy).Contents (Elt Ideal))
    (tp : Cert.KernelIdeal.S64x256x256.Idx → EReal)
    (htp : ∀ (m : Fin 64) (d e : Fin 256),
      tp (ix3 m d e) = ∑ s : Fin 128, fillerRows x0 x2 (ix3 m s d) * roleRows x1 x3 (ix3 m s e))
    (m : Fin 64) (n : Fin 1024) (k : Fin 65536) :
    shapeCast Cert.KernelIdeal.S64x65536 tp Cert.KernelIdeal.Gen.shapeCasts_S64x256x256_S64x65536 (ix2 m k) * x4 (ix2 n k)
      = outTerm x0 x1 x2 x3 x4 m n k := by
  rw [reshape_products_apply, htp]
  rfl

end Cert.Proof.Bridge

end
-- ==== Proof.OutGlue.lean ====
/-
  The kernel program's result entry is the reference's.

  The second region's result is the contraction of the reshaped products with the weights plus the reshaped bias; the
  products are those of the narrowed gathered rows.  Entry (m, n) is therefore
  ∑ k, (∑ s, f (m, s, k / 256) · r (m, s, k % 256)) · W (n, k) + b n, the entry of the result both programs are compared
  against.  Nothing but the reading of the reshapes at an index is used.
-/
import proofs.«181320_j70016556860030_2_alg».proof.Proof.TpBlocks
import proofs.«181320_j70016556860030_2_alg».proof.Proof.LinBlocks
import proofs.«181320_j70016556860030_2_alg».proof.Proof.HostRows
import proofs.«181320_j70016556860030_2_alg».proof.Proof.EntryTerm

set_option maxRecDepth 16384

noncomputable section

namespace Cert.Proof.Bridge

open Cert.KernelIdeal Cert.KernelIdeal.Gen Idealize.ShloMosaic Idealize.ShloMosaic.ValueIdx Idealize.ShloMosaic.TcCoe
  Idealize.SL.Sem Idealize.ShloMosaic.StableHlo

/-- The second region's result, computed from the products of any two arrays equal entry by entry to the gathered rows,
    at (m, n): the entry of the result. -/
theorem linearOf_products_apply (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal))
    (f r : S64x128x256.Idx → EReal) (hf : ∀ i, f i = fillerRows x0 x2 i) (hr : ∀ i, r i = roleRows x1 x3 i)
    (m : Fin 64) (n : Fin 1024) :
    linearOf (shapeCast S64x65536 (productsOf f r) shapeCasts_S64x256x256_S64x65536) x4
        (shapeCast S1x1024 x5 shapeCasts_S1024_S1x1024) (ix2 m n)
      = outEntry x0 x1 x2 x3 x4 x5 m n := by
  rw [linearOf_apply, reshape_bias_apply, outEntry_eq_sum]
  refine congrArg (· + x5 (ix1 n)) (Finset.sum_congr rfl fun k _ => ?_)
  exact outTerm_of_products x0 x1 x2 x3 x4 (productsOf f r)
    (fun m d e => by rw [productsOf_apply]; exact Finset.sum_congr rfl fun s _ => by rw [hf, hr]) m n k

/-- With the kernel program's own host operands: the narrowed gathered rows. -/
theorem linearOf_kernel_apply (x0 x1 : (⟨S64x128, .i32⟩ : BufTy).Contents (Elt Ideal))
    (x2 : (⟨S50257x256, .f32⟩ : BufTy).Contents (Elt Ideal)) (x3 : (⟨S512x256, .f32⟩ : BufTy).Contents (Elt Ideal))
    (x4 : (⟨S1024x65536, .f32⟩ : BufTy).Contents (Elt Ideal)) (x5 : (⟨S1024, .f32⟩ : BufTy).Contents (Elt Ideal))
    (m : Fin 64) (n : Fin 1024) :
    linearOf
        (shapeCast S64x65536
          (productsOf (truncf .bf16 (kernelFillerRows x0 x2) bitsLt_bf16_f32 : FVec Ideal S64x128x256 .bf16)
            (truncf .bf16 (kernelRoleRows x1 x3) bitsLt_bf16_f32 : FVec Ideal S64x128x256 .bf16))
          shapeCasts_S64x256x256_S64x65536)
        x4 (shapeCast S1x1024 x5 shapeCasts_S1024_S1x1024) (ix2 m n)
      = outEntry x0 x1 x2 x3 x4 x5 m n :=
  linearOf_products_apply x0 x1 x2 x3 x4 x5 _ _ (fun i => kernel_filler_apply x0 x2 i) (fun i => kernel_role_apply x1 x3 i) m n

end Cert.Proof.Bridge

end
-- ==== Proof.IdealResult.lean ====
/-
  The kernel's result is the specification.

  The linear region's output array ends holding, at (m, n), the sum over all 65536 columns k of the reshaped product
  array at (m, k) times the weight at (n, k), plus the bias at n; the product array is, at (m, d, e), the sum over
  the 128 positions s of the filler row entry (m, s, d) times the role row entry (m, s, e). With what the host
  stretches put in those arrays this is entry (m, n) of the specification array, which is also what the reference
  computes.
-/
import proofs.«181320_j70016556860030_2_alg».proof.Proof.IdealEntry
import proofs.«181320_j70016556860030_2_alg».proof.Proof.ArrTp
import proofs.«181320_j70016556860030_2_alg».proof.Proof.ArrLin
import proofs.«181320_j70016556860030_2_alg».proof.Proof.OutGlue
import proofs.«181320_j70016556860030_2_alg».proof.Proof.OutSpec

set_option maxRecDepth 16384

noncomputable section

namespace Cert.KernelIdeal.Hand

open Cert.KernelIdeal Cert.KernelIdeal.Gen Cert.Proof.Bridge
open Idealize.ShloMosaic Idealize.ShloMosaic.ValueIdx Idealize.ShloMosaic.TcCoe Idealize.SL.Sem

variable (m : (ℓ : Loc nD τ sig) → Buf (Elt Ideal) ℓ)

/-- The linear region's final output array is the specification array of the argument arrays. -/
theorem kernel_result (c : Dev nD) :
    (linDat (V3 m) c).arrAt 3 cfg1.N
      = outArray (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have htp := tp_arr_of (V1 m) c _ _ (entry_filler m c) (entry_role m c)
  have hlin := lin_arr_of (V3 m) c _ _ _
    ((entry_products m c).trans (congrArg (fun x => shapeCast S64x65536 x shapeCasts_S64x256x256_S64x65536) htp))
    (entry_weights m c) (entry_bias m c)
  rw [hlin]
  funext i
  obtain ⟨p, n, rfl⟩ : ∃ (p : Fin 64) (n : Fin 1024), i = ix2 p n := ⟨i 0, i 1, eq_ix2 i⟩
  rw [outArray_apply]
  exact linearOf_kernel_apply _ _ _ _ _ _ p n

end Cert.KernelIdeal.Hand

end
-- ==== Proof.RefRead.lean ====
/-
  The reference's run read back one operation at a time: the generated run and read-at-an-index modules, imported here
  so that the modules stating what the reference computes have them.
-/
import proofs.«181320_j70016556860030_2_alg».proof.Proof.Gen.ReferenceIdeal.Run
import proofs.«181320_j70016556860030_2_alg».proof.Proof.Gen.ReferenceIdeal.Read
-- ==== Proof.lean ====
/-
  The certificate of a tensor-product encoder against its reference, on the extended reals.

  Both programs gather, per batch element, 128 filler rows and 128 role rows of 256 entries, form the 256 x 256 sum
  over the 128 positions of their outer products, flatten it to 65536 entries, and apply a linear layer with 1024
  outputs: entry (m, n) of the result is the sum over k of the flattened product (m, k) times the weight (n, k), plus
  the bias n. The kernel does this in two pallas_calls — the products 32 batch elements at a time, then the linear
  layer in 2 blocks of 512 outputs, each accumulated over 16 blocks of 4096 columns in a scratch accumulator — with
  the operands narrowed to a 16-bit float format on the way, which is the identity on the extended reals. The
  reference does it with two dot_generals. The two results differ only in how the sum over the 65536 columns is
  grouped, and addition of extended reals is associative and commutative, so they are equal with no finiteness
  assumption: the precondition is never opened.

  The three frames: each kernel program's run through its two regions (at the word level and at the ideal instance),
  and the reference's generated run with the result dropped. The idealization rewrote nothing, so `preserves` is
  trivial. `algebraic`: both runs end with the specification array of the (agreeing) arguments in the result buffer.
-/
import proofs.«181320_j70016556860030_2_alg».proof.Defs
import proofs.«181320_j70016556860030_2_alg».proof.Proof.Gen.Kernel
import proofs.«181320_j70016556860030_2_alg».proof.Proof.Gen.KernelIdeal
import proofs.«181320_j70016556860030_2_alg».proof.Proof.Gen.ReferenceIdeal
import proofs.«181320_j70016556860030_2_alg».proof.Proof.Gen.Pre_finite_inputs
import proofs.«181320_j70016556860030_2_alg».proof.Proof.BitsFrame
import proofs.«181320_j70016556860030_2_alg».proof.Proof.IdealFrame
import proofs.«181320_j70016556860030_2_alg».proof.Proof.IdealResult
import proofs.«181320_j70016556860030_2_alg».proof.Proof.RefRead
import proofs.«181320_j70016556860030_2_alg».proof.Proof.OutSpec

noncomputable section

namespace Cert.Proof

open Idealize.ShloMosaic Idealize.SL.Sem

/-- The word-level kernel program runs to the end, faults nowhere, and leaves its arguments unchanged. -/
theorem frame_kernel : @Cert.frame_Kernel Cert.Kernel.Gen.facts Cert.Pre_finite_inputs.Gen.facts :=
  fun m ρ _ => Cert.Kernel.Hand.frame (F := Bits) m ρ

/-- So does the idealized kernel program. -/
theorem frame_ideal : @Cert.frame_KernelIdeal Cert.KernelIdeal.Gen.facts Cert.Pre_finite_inputs.Gen.facts :=
  fun m ρ _ => Cert.KernelIdeal.Hand.frame (F := Ideal) m ρ

/-- The reference is host operations only: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification array of those arguments in
    the result buffer: the kernel by its two regions' final arrays, the reference by its operations read at an index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Proof.Bridge.outArray (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_result m c), (h c).2⟩)
      (Cert.KernelIdeal.Hand.run_out (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v20_eq, Cert.Proof.Bridge.reference_eq_outArray,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
